-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x1024 : Shape := ⟨2, ![16384, 1024]⟩
abbrev S16384x3 : Shape := ⟨2, ![16384, 3]⟩
abbrev S100000x64 : Shape := ⟨2, ![100000, 64]⟩
abbrev S1024x64 : Shape := ⟨2, ![1024, 64]⟩
abbrev S3x64 : Shape := ⟨2, ![3, 64]⟩
abbrev S64 : Shape := ⟨1, ![64]⟩
abbrev S195x128 : Shape := ⟨2, ![195, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S195x128 .f32) (main_arg8 : FVec F S128 .f32) (main_arg9 : FVec F S128x1 .f32) (main_arg10 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S195x128 .f32 := Host.absf main_arg7
  let main_cst_8 : FVec F S_ .f32 := constant S_ .f32 0x7F800000#32
  let main_v25 : FVec F S195x128 .f32 := broadcastInDim S195x128 ![] bcast_S_S195x128 main_cst_8
  let main_v26 : IVec S195x128 1 := cmpf .olt main_v24 main_v25
  let main_c_9 : IVec S_ 1 := constantI S_ 1 1#1
  let main_v27 : IVec S_ 1 := (fun x v => Host.reduce IntOp.andi x v reducesTo_S195x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : IVec S16384 32) (main_arg1 : IVec S16384x1024 32) (main_arg2 : FVec F S16384x3 .f32) (main_arg3 : FVec F S100000x64 .f32) (main_arg4 : FVec F S1024x64 .f32) (main_arg5 : FVec F S3x64 .f32) (main_arg6 : FVec F S64 .f32) (main_arg7 : FVec F S195x128 .f32) (main_arg8 : FVec F S128 .f32) (main_arg9 : FVec F S128x1 .f32) (main_arg10 : FVec F S1 .f32) : IVec S_ 1 :=
  let main_v0 : FVec F S16384x3 .f32 := Host.absf main_arg2
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1024x64 .f32 := Host.absf main_arg4
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_v13 main_v16
-- ==== Kernel.lean ====
abbrev S16384 : Shape := ⟨1, ![16384]⟩
abbrev S16384x1024 : Shape := ⟨2, ![16384, 1024]⟩
abbrev S16384x3 : Shape := ⟨2, ![16384, 3]⟩
abbrev S100000x64 : Shape := ⟨2, ![100000, 64]⟩
abbrev S1024x64 : Shape := ⟨2, ![1024, 64]⟩
abbrev S3x64 : Shape := ⟨2, ![3, 64]⟩
abbrev S64 : Shape := ⟨1, ![64]⟩
abbrev S195x128 : Shape := ⟨2, ![195, 128]⟩
abbrev S128 : Shape := ⟨1, ![128]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S1024x1 : Shape := ⟨2, ![1024, 1]⟩
abbrev S1024x65 : Shape := ⟨2, ![1024, 65]⟩
abbrev S64x128 : Shape := ⟨2, ![64, 128]⟩
abbrev S1x128 : Shape := ⟨2, ![1, 128]⟩
abbrev S1x64 : Shape := ⟨2, ![1, 64]⟩
abbrev S1x1 : Shape := ⟨2, ![1, 1]⟩
abbrev S16384x128 : Shape := ⟨2, ![16384, 128]⟩
abbrev S1024x1024 : Shape := ⟨2, ![1024, 1024]⟩
abbrev S1024x3 : Shape := ⟨2, ![1024, 3]⟩
abbrev S1024x128 : Shape := ⟨2, ![1024, 128]⟩
abbrev S1024 : Shape := ⟨1, ![1024]⟩

abbrev nBuf : Space → Nat
  | .hbm => 41
  | .vmem => 22
  | .smem => 0
  | _ => 0

abbrev bufTy : (tb : Table) → Fin (tcTables nBuf tb) → BufTy
  | .hbm, ⟨0, _⟩ => ⟨S16384, .i32⟩
  | .hbm, ⟨1, _⟩ => ⟨S16384x1024, .i32⟩
  | .hbm, ⟨2, _⟩ => ⟨S16384x3, .f32⟩
  | .hbm, ⟨3, _⟩ => ⟨S100000x64, .f32⟩
  | .hbm, ⟨4, _⟩ => ⟨S1024x64, .f32⟩
  | .hbm, ⟨5, _⟩ => ⟨S3x64, .f32⟩
  | .hbm, ⟨6, _⟩ => ⟨S64, .f32⟩
  | .hbm, ⟨7, _⟩ => ⟨S195x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x64, .f32⟩
  | .hbm, ⟨20, _⟩ => ⟨S_, .f32⟩
  | .hbm, ⟨21, _⟩ => ⟨S1024x1, .f32⟩
  | .hbm, ⟨22, _⟩ => ⟨S1024x65, .f32⟩
  | .hbm, ⟨23, _⟩ => ⟨S1024x65, .bf16⟩
  | .hbm, ⟨24, _⟩ => ⟨S3x64, .bf16⟩
  | .hbm, ⟨25, _⟩ => ⟨S64x128, .f32⟩
  | .hbm, ⟨26, _⟩ => ⟨S64x128, .bf16⟩
  | .hbm, ⟨27, _⟩ => ⟨S64x128, .f32⟩
  | .hbm, ⟨28, _⟩ => ⟨S64x128, .bf16⟩
  | .hbm, ⟨29, _⟩ => ⟨S64x128, .f32⟩
  | .hbm, ⟨30, _⟩ => ⟨S64x128, .bf16⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S128x1, .bf16⟩
  | .hbm, ⟨35, _⟩ => ⟨S1x64, .f32⟩
  | .hbm, ⟨36, _⟩ => ⟨S1x128, .f32⟩
  | .hbm, ⟨37, _⟩ => ⟨S1x1, .f32⟩
  | .hbm, ⟨38, _⟩ => ⟨S16384x128, .f32⟩
  | .hbm, ⟨39, _⟩ => ⟨S16384x1, .f32⟩
  | .hbm, ⟨40, _⟩ => ⟨S16384, .f32⟩
  | .local _ .vmem, ⟨0, _⟩ => ⟨S1024x1024, .i32⟩
  | .local _ .vmem, ⟨1, _⟩ => ⟨S1024x1024, .i32⟩
  | .local _ .vmem, ⟨2, _⟩ => ⟨S1024x64, .f32⟩
  | .local _ .vmem, ⟨3, _⟩ => ⟨S1024x64, .f32⟩
  | .local _ .vmem, ⟨4, _⟩ => ⟨S1024x3, .f32⟩
  | .local _ .vmem, ⟨5, _⟩ => ⟨S1024x3, .f32⟩
  | .local _ .vmem, ⟨6, _⟩ => ⟨S1024x65, .bf16⟩
  | .local _ .vmem, ⟨7, _⟩ => ⟨S3x64, .bf16⟩
  | .local _ .vmem, ⟨8, _⟩ => ⟨S1x64, .f32⟩
  | .local _ .vmem, ⟨9, _⟩ => ⟨S64x128, .bf16⟩
  | .local _ .vmem, ⟨10, _⟩ => ⟨S64x128, .bf16⟩
  | .local _ .vmem, ⟨11, _⟩ => ⟨S64x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x1, .bf16⟩
  | .local _ .vmem, ⟨17, _⟩ => ⟨S1x1, .f32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x65 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S1024x1 : S_.BroadcastsInDim S1024x1 (![] : Fin 0 → Fin S1024x1.rank)
  concatenates_S1024x64_S1024x1_S1024x65_d1 : Shape.Concatenates [S1024x64, S1024x1] S1024x65 1
  bitsLt_bf16_f32 : FTy.bits .bf16 < FTy.bits .f32
  slices_S195x128_S64x128_0_0 : S195x128.Slices ![0, 0] S64x128
  slices_S195x128_S64x128_64_0 : S195x128.Slices ![64, 0] S64x128
  slices_S195x128_S64x128_128_0 : S195x128.Slices ![128, 0] S64x128
  slices_S195x128_S1x128_192_0 : S195x128.Slices ![192, 0] S1x128
  slices_S195x128_S1x128_193_0 : S195x128.Slices ![193, 0] S1x128
  slices_S195x128_S1x128_194_0 : S195x128.Slices ![194, 0] S1x128
  shapeCasts_S64_S1x64 : S64.ShapeCasts S1x64
  shapeCasts_S128_S1x128 : S128.ShapeCasts S1x128
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  inb_S1024x65_S1024x65_0_0 : ∀ a, (![0, 0] : Fin 2 → Nat) a + S1024x65.size a ≤ S1024x65.size a
  h_S1024x65 : 0 < S1024x65.numel
  shapeCasts_S1024x65_S1024x65 : S1024x65.ShapeCasts S1024x65
  slices_S1024x65_o0_0_S1024x64 : S1024x65.Slices ![0, 0] S1024x64
  slices_S1024x65_o0_64_S1024x1 : S1024x65.Slices ![0, 64] S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x3_S1024x3_0_0 : ∀ a, (![0, 0] : Fin 2 → Nat) a + S1024x3.size a ≤ S1024x3.size a
  h_S1024x3 : 0 < S1024x3.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  gather_S100000x64_S16384x1_S16384x64_1_0_n_n_0_1_164_wf : GatherDims.WF S100000x64 S16384x1 S16384x64 [1] [0] [] [0] [] 1 ![1, 64]
  dot_S1024x1024_S1024x65_S1024x65_1_0_0_1_n_n_wf : DotDims.WF S1024x1024 S1024x65 S1024x65 [1] [0] [0] [1] [] []
  dot_S1024x3_S3x64_S1024x64_1_0_0_1_n_n_wf : DotDims.WF S1024x3 S3x64 S1024x64 [1] [0] [0] [1] [] []
  dot_S1024x64_S64x128_S1024x128_1_0_0_1_n_n_wf : DotDims.WF S1024x64 S64x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .i32 = 32 ∨ (Rect.block (s := S16384x1024) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S16384x3.size a
  hwx0_2 : ∀ i : grid0.Coords, EltTy.bits .f32 = 32 ∨ (Rect.block (s := S16384x3) S1024x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x65.size a ≤ S1024x65.size a
  hwx0_3 : ∀ i : grid0.Coords, EltTy.bits .bf16 = 32 ∨ (Rect.block (s := S1024x65) S1024x65.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .bf16 = 32 ∨ (Rect.block (s := S3x64) S3x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .bf16 = 32 ∨ (Rect.block (s := S64x128) S64x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .bf16 = 32 ∨ (Rect.block (s := S64x128) S64x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .bf16 = 32 ∨ (Rect.block (s := S128x1) S128x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S16384x128.size a
  hwx0_15 : ∀ i : grid0.Coords, EltTy.bits .f32 = 32 ∨ (Rect.block (s := S16384x128) S1024x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x1.size a ≤ S16384x1.size a
  hwx0_16 : ∀ i : grid0.Coords, EltTy.bits .f32 = 32 ∨ (Rect.block (s := S16384x1) S1024x1.size (cc0_transform_16 i) (hinb0_16 i)).WholeWords (EltTy.packing .f32)

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S1024x1024_S1024x65_S1024x65_1_0_0_1_n_n : DotDims S1024x1024 S1024x65 S1024x65 where
  lhsContracting := [1]
  rhsContracting := [0]
  lhsNonContracting := [0]
  rhsNonContracting := [1]
  lhsBatch := []
  rhsBatch := []
  wf := dot_S1024x1024_S1024x65_S1024x65_1_0_0_1_n_n_wf
def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x65.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24_0) S1024x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v24_1) S1024x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384 : Shape := ⟨1, ![16384]⟩
abbrev S16384x1024 : Shape := ⟨2, ![16384, 1024]⟩
abbrev S16384x3 : Shape := ⟨2, ![16384, 3]⟩
abbrev S100000x64 : Shape := ⟨2, ![100000, 64]⟩
abbrev S1024x64 : Shape := ⟨2, ![1024, 64]⟩
abbrev S3x64 : Shape := ⟨2, ![3, 64]⟩
abbrev S64 : Shape := ⟨1, ![64]⟩
abbrev S195x128 : Shape := ⟨2, ![195, 128]⟩
abbrev S128 : Shape := ⟨1, ![128]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S1x64 : Shape := ⟨2, ![1, 64]⟩
abbrev S16384x195 : Shape := ⟨2, ![16384, 195]⟩
abbrev S16384x128 : Shape := ⟨2, ![16384, 128]⟩
abbrev S1x128 : Shape := ⟨2, ![1, 128]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1024, .i32⟩
  | .hbm, ⟨2, _⟩ => ⟨S16384x3, .f32⟩
  | .hbm, ⟨3, _⟩ => ⟨S100000x64, .f32⟩
  | .hbm, ⟨4, _⟩ => ⟨S1024x64, .f32⟩
  | .hbm, ⟨5, _⟩ => ⟨S3x64, .f32⟩
  | .hbm, ⟨6, _⟩ => ⟨S64, .f32⟩
  | .hbm, ⟨7, _⟩ => ⟨S195x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x64, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x64, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x195, .f32⟩
  | .hbm, ⟨44, _⟩ => ⟨S16384x128, .f32⟩
  | .hbm, ⟨45, _⟩ => ⟨S1x128, .f32⟩
  | .hbm, ⟨46, _⟩ => ⟨S16384x128, .f32⟩
  | .hbm, ⟨47, _⟩ => ⟨S16384x128, .f32⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S16384x1, .f32⟩
  | .hbm, ⟨52, _⟩ => ⟨S1x1, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S_S16384 : S_.BroadcastsInDim S16384 (![] : Fin 0 → Fin S16384.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  concatenates_S16384x64_S16384x64_S16384x64_S16384x1_S16384x1_S16384x1_S16384x195_d1 : Shape.Concatenates [S16384x64, S16384x64, S16384x64, S16384x1, S16384x1, S16384x1] S16384x195 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  dot_S16384x1024_S1024x64_S16384x64_1_0_0_1_n_n_wf : DotDims.WF S16384x1024 S1024x64 S16384x64 [1] [0] [0] [1] [] []
  gather_S100000x64_S16384x1_S16384x64_1_0_n_n_0_1_164_wf : GatherDims.WF S100000x64 S16384x1 S16384x64 [1] [0] [] [0] [] 1 ![1, 64]
  dot_S16384x3_S3x64_S16384x64_1_0_0_1_n_n_wf : DotDims.WF S16384x3 S3x64 S16384x64 [1] [0] [0] [1] [] []
  dot_S16384x195_S195x128_S16384x128_1_0_0_1_n_n_wf : DotDims.WF S16384x195 S195x128 S16384x128 [1] [0] [0] [1] [] []
  dot_S16384x128_S128x1_S16384x1_1_0_0_1_n_n_wf : DotDims.WF S16384x128 S128x1 S16384x1 [1] [0] [0] [1] [] []

variable [Facts₀]

def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x3_S3x64_S16384x64_1_0_0_1_n_n : DotDims S16384x3 S3x64 S16384x64 where
  lhsContracting := [1]
  rhsContracting := [0]
  lhsNonContracting := [0]
  rhsNonContracting := [1]
  lhsBatch := []
  rhsBatch := []
  wf := dot_S16384x3_S3x64_S16384x64_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.BlockReads.lean ====
/-
  The kernel's operands at one grid point, read off the arrays.

  The batch of 16384 rows is cut into sixteen blocks of 1024 rows, one per grid point.  At point t the three
  per-row operands (the rows' skill targets, the gathered question embeddings, the difficulty features) hold rows
  1024·t … 1024·t + 1023 of their arrays: a block's coordinate is the block index times the block size plus the
  coordinate inside the block, and the index maps send point t to block (t, 0).  The twelve remaining operands —
  the skill table, the weights and the biases, shared by every row — are blocked by their whole array, at block
  (0, 0) whatever the point, so their block IS the array.  The index maps are decided once over the grid.  Last,
  the body reads every operand through the rectangle of all of its block at zero offsets, through which a load is
  the identity and one store leaves its payload: so each result block (the hidden activations, the prediction
  column) is the corresponding payload of the operand blocks.
-/
import proofs.«123834_j38826504356124_2_alg».proof.Proof.Gen.KernelIdeal.Frame
import Idealize.ShloMosaic.Lib.Pipeline.Value
import Idealize.ShloMosaic.Lib.ValueIdx

noncomputable section

namespace Cert.KernelIdeal.Plumb

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## Rows of a block as rows of the array -/

/-- A grid point's number is below sixteen. -/
theorem point_lt (t : Fin cfg0.N) : t.val < 16 :=
  lt_of_lt_of_eq t.isLt (show cfg0.N = 16 from N_0)

/-- Row p of the block at point t is row 1024·t + p of a 16384-row array. -/
def rowAt (t : Fin cfg0.N) (p : Fin 1024) : Fin 16384 :=
  ⟨1024 * t.val + p.val, by have := point_lt t; have := p.isLt; omega⟩

@[simp] theorem rowAt_val (t : Fin cfg0.N) (p : Fin 1024) : (rowAt t p).val = 1024 * t.val + p.val := rfl

/-- The per-row windows' index maps, decided over the grid: point t is block (t, 0), for the three per-row
    operands and the two results. -/
theorem rows_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- The whole-array windows' index maps, decided over the grid: every point is block (0, 0). -/
theorem whole_index : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Operand 0, the rows' skill targets: the block at point t, at (p, k), is the array at (1024·t + p, k). -/
theorem iblk0_apply (c : Dev nD) (t : Fin cfg0.N) (p : Fin 1024) (k : Fin 1024) :
    (iblk m c 0 t : Vec F S1024x1024 .i32) (ix2 p k) = (V m c main_arg1 : Vec F S16384x1024 .i32) (ix2 (rowAt t p) k) := by
  obtain ⟨h0, h1⟩ := (rows_index t).1
  show (V m c main_arg1 : Vec F S16384x1024 .i32) (((cfg0.win 0).blk t).view.emb (ix2 p k)) = _
  refine congrArg (V m c main_arg1 : Vec F S16384x1024 .i32) (funext fun a => Fin.ext ?_)
  match a with
  | ⟨0, _⟩ => show win0_0.index t (0 : Fin 2) * 1024 + 1 * p.val = 1024 * t.val + p.val; rw [h0]; omega
  | ⟨1, _⟩ => show win0_0.index t (1 : Fin 2) * 1024 + 1 * k.val = k.val; rw [h1]; omega

/-- Operand 1, the gathered question embeddings: the block at point t, at (p, k), is the array at (1024·t + p, k). -/
theorem iblk1_apply (c : Dev nD) (t : Fin cfg0.N) (p : Fin 1024) (k : Fin 64) :
    (iblk m c 1 t : Vec F S1024x64 .f32) (ix2 p k) = (V m c main_v6 : Vec F S16384x64 .f32) (ix2 (rowAt t p) k) := by
  obtain ⟨h0, h1⟩ := (rows_index t).2.1
  show (V m c main_v6 : Vec F S16384x64 .f32) (((cfg0.win 1).blk t).view.emb (ix2 p k)) = _
  refine congrArg (V m c main_v6 : Vec F S16384x64 .f32) (funext fun a => Fin.ext ?_)
  match a with
  | ⟨0, _⟩ => show win0_1.index t (0 : Fin 2) * 1024 + 1 * p.val = 1024 * t.val + p.val; rw [h0]; omega
  | ⟨1, _⟩ => show win0_1.index t (1 : Fin 2) * 64 + 1 * k.val = k.val; rw [h1]; omega

/-- Operand 2, the difficulty features: the block at point t, at (p, k), is the array at (1024·t + p, k). -/
theorem iblk2_apply (c : Dev nD) (t : Fin cfg0.N) (p : Fin 1024) (k : Fin 3) :
    (iblk m c 2 t : Vec F S1024x3 .f32) (ix2 p k) = (V m c main_arg2 : Vec F S16384x3 .f32) (ix2 (rowAt t p) k) := by
  obtain ⟨h0, h1⟩ := (rows_index t).2.2.1
  show (V m c main_arg2 : Vec F S16384x3 .f32) (((cfg0.win 2).blk t).view.emb (ix2 p k)) = _
  refine congrArg (V m c main_arg2 : Vec F S16384x3 .f32) (funext fun a => Fin.ext ?_)
  match a with
  | ⟨0, _⟩ => show win0_2.index t (0 : Fin 2) * 1024 + 1 * p.val = 1024 * t.val + p.val; rw [h0]; omega
  | ⟨1, _⟩ => show win0_2.index t (1 : Fin 2) * 3 + 1 * k.val = k.val; rw [h1]; omega

/-! ## The operands blocked by their whole array -/

/-- Operand 3's block at every point is its whole array. -/
theorem iblk3_eq (c : Dev nD) (t : Fin cfg0.N) :
    (iblk m c 3 t : Vec F S1024x65 .bf16) = (V m c main_v9 : Vec F S1024x65 .bf16) := by
  obtain ⟨h0, h1⟩ := (whole_index t).1
  funext y
  show (V m c main_v9 : Vec F S1024x65 .bf16) (((cfg0.win 3).blk t).view.emb y) = _
  refine congrArg (V m c main_v9 : Vec F S1024x65 .bf16) (funext fun a => Fin.ext ?_)
  match a with
  | ⟨0, _⟩ => show win0_3.index t (0 : Fin 2) * 1024 + 1 * (y 0).val = (y 0).val; rw [h0]; omega
  | ⟨1, _⟩ => show win0_3.index t (1 : Fin 2) * 65 + 1 * (y 1).val = (y 1).val; rw [h1]; omega

/-- Operand 4's block at every point is its whole array. -/
theorem iblk4_eq (c : Dev nD) (t : Fin cfg0.N) :
    (iblk m c 4 t : Vec F S3x64 .bf16) = (V m c main_v10 : Vec F S3x64 .bf16) := by
  obtain ⟨h0, h1⟩ := (whole_index t).2.1
  funext y
  show (V m c main_v10 : Vec F S3x64 .bf16) (((cfg0.win 4).blk t).view.emb y) = _
  refine congrArg (V m c main_v10 : Vec F S3x64 .bf16) (funext fun a => Fin.ext ?_)
  match a with
  | ⟨0, _⟩ => show win0_4.index t (0 : Fin 2) * 3 + 1 * (y 0).val = (y 0).val; rw [h0]; omega
  | ⟨1, _⟩ => show win0_4.index t (1 : Fin 2) * 64 + 1 * (y 1).val = (y 1).val; rw [h1]; omega

/-- Operand 5's block at every point is its whole array. -/
theorem iblk5_eq (c : Dev nD) (t : Fin cfg0.N) :
    (iblk m c 5 t : Vec F S1x64 .f32) = (V m c main_v21 : Vec F S1x64 .f32) := by
  obtain ⟨h0, h1⟩ := (whole_index t).2.2.1
  funext y
  show (V m c main_v21 : Vec F S1x64 .f32) (((cfg0.win 5).blk t).view.emb y) = _
  refine congrArg (V m c main_v21 : Vec F S1x64 .f32) (funext fun a => Fin.ext ?_)
  match a with
  | ⟨0, _⟩ => show win0_5.index t (0 : Fin 2) * 1 + 1 * (y 0).val = (y 0).val; rw [h0]; omega
  | ⟨1, _⟩ => show win0_5.index t (1 : Fin 2) * 64 + 1 * (y 1).val = (y 1).val; rw [h1]; omega

/-- Operand 6's block at every point is its whole array. -/
theorem iblk6_eq (c : Dev nD) (t : Fin cfg0.N) :
    (iblk m c 6 t : Vec F S64x128 .bf16) = (V m c main_v12 : Vec F S64x128 .bf16) := by
  obtain ⟨h0, h1⟩ := (whole_index t).2.2.2.1
  funext y
  show (V m c main_v12 : Vec F S64x128 .bf16) (((cfg0.win 6).blk t).view.emb y) = _
  refine congrArg (V m c main_v12 : Vec F S64x128 .bf16) (funext fun a => Fin.ext ?_)
  match a with
  | ⟨0, _⟩ => show win0_6.index t (0 : Fin 2) * 64 + 1 * (y 0).val = (y 0).val; rw [h0]; omega
  | ⟨1, _⟩ => show win0_6.index t (1 : Fin 2) * 128 + 1 * (y 1).val = (y 1).val; rw [h1]; omega

/-- Operand 7's block at every point is its whole array. -/
theorem iblk7_eq (c : Dev nD) (t : Fin cfg0.N) :
    (iblk m c 7 t : Vec F S64x128 .bf16) = (V m c main_v14 : Vec F S64x128 .bf16) := by
  obtain ⟨h0, h1⟩ := (whole_index t).2.2.2.2.1
  funext y
  show (V m c main_v14 : Vec F S64x128 .bf16) (((cfg0.win 7).blk t).view.emb y) = _
  refine congrArg (V m c main_v14 : Vec F S64x128 .bf16) (funext fun a => Fin.ext ?_)
  match a with
  | ⟨0, _⟩ => show win0_7.index t (0 : Fin 2) * 64 + 1 * (y 0).val = (y 0).val; rw [h0]; omega
  | ⟨1, _⟩ => show win0_7.index t (1 : Fin 2) * 128 + 1 * (y 1).val = (y 1).val; rw [h1]; omega

/-- Operand 8's block at every point is its whole array. -/
theorem iblk8_eq (c : Dev nD) (t : Fin cfg0.N) :
    (iblk m c 8 t : Vec F S64x128 .bf16) = (V m c main_v16 : Vec F S64x128 .bf16) := by
  obtain ⟨h0, h1⟩ := (whole_index t).2.2.2.2.2.1
  funext y
  show (V m c main_v16 : Vec F S64x128 .bf16) (((cfg0.win 8).blk t).view.emb y) = _
  refine congrArg (V m c main_v16 : Vec F S64x128 .bf16) (funext fun a => Fin.ext ?_)
  match a with
  | ⟨0, _⟩ => show win0_8.index t (0 : Fin 2) * 64 + 1 * (y 0).val = (y 0).val; rw [h0]; omega
  | ⟨1, _⟩ => show win0_8.index t (1 : Fin 2) * 128 + 1 * (y 1).val = (y 1).val; rw [h1]; omega

/-- Operand 9's block at every point is its whole array. -/
theorem iblk9_eq (c : Dev nD) (t : Fin cfg0.N) :
    (iblk m c 9 t : Vec F S1x128 .f32) = (V m c main_v17 : Vec F S1x128 .f32) := by
  obtain ⟨h0, h1⟩ := (whole_index t).2.2.2.2.2.2.1
  funext y
  show (V m c main_v17 : Vec F S1x128 .f32) (((cfg0.win 9).blk t).view.emb y) = _
  refine congrArg (V m c main_v17 : Vec F S1x128 .f32) (funext fun a => Fin.ext ?_)
  match a with
  | ⟨0, _⟩ => show win0_9.index t (0 : Fin 2) * 1 + 1 * (y 0).val = (y 0).val; rw [h0]; omega
  | ⟨1, _⟩ => show win0_9.index t (1 : Fin 2) * 128 + 1 * (y 1).val = (y 1).val; rw [h1]; omega

/-- Operand 10's block at every point is its whole array. -/
theorem iblk10_eq (c : Dev nD) (t : Fin cfg0.N) :
    (iblk m c 10 t : Vec F S1x128 .f32) = (V m c main_v18 : Vec F S1x128 .f32) := by
  obtain ⟨h0, h1⟩ := (whole_index t).2.2.2.2.2.2.2.1
  funext y
  show (V m c main_v18 : Vec F S1x128 .f32) (((cfg0.win 10).blk t).view.emb y) = _
  refine congrArg (V m c main_v18 : Vec F S1x128 .f32) (funext fun a => Fin.ext ?_)
  match a with
  | ⟨0, _⟩ => show win0_10.index t (0 : Fin 2) * 1 + 1 * (y 0).val = (y 0).val; rw [h0]; omega
  | ⟨1, _⟩ => show win0_10.index t (1 : Fin 2) * 128 + 1 * (y 1).val = (y 1).val; rw [h1]; omega

/-- Operand 11's block at every point is its whole array. -/
theorem iblk11_eq (c : Dev nD) (t : Fin cfg0.N) :
    (iblk m c 11 t : Vec F S1x128 .f32) = (V m c main_v19 : Vec F S1x128 .f32) := by
  obtain ⟨h0, h1⟩ := (whole_index t).2.2.2.2.2.2.2.2.1
  funext y
  show (V m c main_v19 : Vec F S1x128 .f32) (((cfg0.win 11).blk t).view.emb y) = _
  refine congrArg (V m c main_v19 : Vec F S1x128 .f32) (funext fun a => Fin.ext ?_)
  match a with
  | ⟨0, _⟩ => show win0_11.index t (0 : Fin 2) * 1 + 1 * (y 0).val = (y 0).val; rw [h0]; omega
  | ⟨1, _⟩ => show win0_11.index t (1 : Fin 2) * 128 + 1 * (y 1).val = (y 1).val; rw [h1]; omega

/-- Operand 12's block at every point is its whole array. -/
theorem iblk12_eq (c : Dev nD) (t : Fin cfg0.N) :
    (iblk m c 12 t : Vec F S1x128 .f32) = (V m c main_v22 : Vec F S1x128 .f32) := by
  obtain ⟨h0, h1⟩ := (whole_index t).2.2.2.2.2.2.2.2.2.1
  funext y
  show (V m c main_v22 : Vec F S1x128 .f32) (((cfg0.win 12).blk t).view.emb y) = _
  refine congrArg (V m c main_v22 : Vec F S1x128 .f32) (funext fun a => Fin.ext ?_)
  match a with
  | ⟨0, _⟩ => show win0_12.index t (0 : Fin 2) * 1 + 1 * (y 0).val = (y 0).val; rw [h0]; omega
  | ⟨1, _⟩ => show win0_12.index t (1 : Fin 2) * 128 + 1 * (y 1).val = (y 1).val; rw [h1]; omega

/-- Operand 13's block at every point is its whole array. -/
theorem iblk13_eq (c : Dev nD) (t : Fin cfg0.N) :
    (iblk m c 13 t : Vec F S128x1 .bf16) = (V m c main_v20 : Vec F S128x1 .bf16) := by
  obtain ⟨h0, h1⟩ := (whole_index t).2.2.2.2.2.2.2.2.2.2.1
  funext y
  show (V m c main_v20 : Vec F S128x1 .bf16) (((cfg0.win 13).blk t).view.emb y) = _
  refine congrArg (V m c main_v20 : Vec F S128x1 .bf16) (funext fun a => Fin.ext ?_)
  match a with
  | ⟨0, _⟩ => show win0_13.index t (0 : Fin 2) * 128 + 1 * (y 0).val = (y 0).val; rw [h0]; omega
  | ⟨1, _⟩ => show win0_13.index t (1 : Fin 2) * 1 + 1 * (y 1).val = (y 1).val; rw [h1]; omega

/-- Operand 14's block at every point is its whole array. -/
theorem iblk14_eq (c : Dev nD) (t : Fin cfg0.N) :
    (iblk m c 14 t : Vec F S1x1 .f32) = (V m c main_v23 : Vec F S1x1 .f32) := by
  obtain ⟨h0, h1⟩ := (whole_index t).2.2.2.2.2.2.2.2.2.2.2
  funext y
  show (V m c main_v23 : Vec F S1x1 .f32) (((cfg0.win 14).blk t).view.emb y) = _
  refine congrArg (V m c main_v23 : Vec F S1x1 .f32) (funext fun a => Fin.ext ?_)
  match a with
  | ⟨0, _⟩ => show win0_14.index t (0 : Fin 2) * 1 + 1 * (y 0).val = (y 0).val; rw [h0]; omega
  | ⟨1, _⟩ => show win0_14.index t (1 : Fin 2) * 1 + 1 * (y 1).val = (y 1).val; rw [h1]; omega

/-! ## Loads and stores through the whole block -/

/-- The body's rectangles all sit at offsets (0, 0). -/
theorem zero_offsets : (![0, 0] : Fin 2 → Nat) = fun _ => 0 := funext fun a => by fin_cases a <;> rfl

/-- A load through the rectangle of all of a 1024x1024 block reads the block. -/
theorem ld_r0_0 {Val : EltTy → Type} {e : EltTy} (x : S1024x1024.Idx → Val e) : View.ld x r0_0 = x :=
  View.ld_unit_zero zero_offsets _ x

/-- A load through the rectangle of all of a 1024x65 block reads the block. -/
theorem ld_r0_1 {Val : EltTy → Type} {e : EltTy} (x : S1024x65.Idx → Val e) : View.ld x r0_1 = x :=
  View.ld_unit_zero zero_offsets _ x

/-- A load through the rectangle of all of a 1024x64 block reads the block. -/
theorem ld_r0_2 {Val : EltTy → Type} {e : EltTy} (x : S1024x64.Idx → Val e) : View.ld x r0_2 = x :=
  View.ld_unit_zero zero_offsets _ x

/-- A load through the rectangle of all of a 1024x3 block reads the block. -/
theorem ld_r0_3 {Val : EltTy → Type} {e : EltTy} (x : S1024x3.Idx → Val e) : View.ld x r0_3 = x :=
  View.ld_unit_zero zero_offsets _ x

/-- A load through the rectangle of all of a 3x64 block reads the block. -/
theorem ld_r0_4 {Val : EltTy → Type} {e : EltTy} (x : S3x64.Idx → Val e) : View.ld x r0_4 = x :=
  View.ld_unit_zero zero_offsets _ x

/-- A load through the rectangle of all of a 1x64 block reads the block. -/
theorem ld_r0_5 {Val : EltTy → Type} {e : EltTy} (x : S1x64.Idx → Val e) : View.ld x r0_5 = x :=
  View.ld_unit_zero zero_offsets _ x

/-- A load through the rectangle of all of a 64x128 block reads the block. -/
theorem ld_r0_6 {Val : EltTy → Type} {e : EltTy} (x : S64x128.Idx → Val e) : View.ld x r0_6 = x :=
  View.ld_unit_zero zero_offsets _ x

/-- A load through the rectangle of all of a 1x128 block reads the block. -/
theorem ld_r0_7 {Val : EltTy → Type} {e : EltTy} (x : S1x128.Idx → Val e) : View.ld x r0_7 = x :=
  View.ld_unit_zero zero_offsets _ x

/-- A load through the rectangle of all of a 128x1 block reads the block. -/
theorem ld_r0_8 {Val : EltTy → Type} {e : EltTy} (x : S128x1.Idx → Val e) : View.ld x r0_8 = x :=
  View.ld_unit_zero zero_offsets _ x

/-- A load through the rectangle of all of a 1x1 block reads the block. -/
theorem ld_r0_9 {Val : EltTy → Type} {e : EltTy} (x : S1x1.Idx → Val e) : View.ld x r0_9 = x :=
  View.ld_unit_zero zero_offsets _ x

/-- A load through the rectangle of all of a 1024x128 block reads the block. -/
theorem ld_r0_10 {Val : EltTy → Type} {e : EltTy} (x : S1024x128.Idx → Val e) : View.ld x r0_10 = x :=
  View.ld_unit_zero zero_offsets _ x

/-- A load through the rectangle of all of a 1024x1 block reads the block. -/
theorem ld_r0_11 {Val : EltTy → Type} {e : EltTy} (x : S1024x1.Idx → Val e) : View.ld x r0_11 = x :=
  View.ld_unit_zero zero_offsets _ x

/-- The hidden activations' block after the body: its one store's payload over the operand blocks themselves. -/
theorem out0_15_eq (x0 : Vec F S1024x1024 .i32) (x1 : Vec F S1024x64 .f32) (x2 : Vec F S1024x3 .f32) (x3 : Vec F S1024x65 .bf16) (x4 : Vec F S3x64 .bf16) (x5 : Vec F S1x64 .f32) (x6 : Vec F S64x128 .bf16) (x7 : Vec F S64x128 .bf16) (x8 : Vec F S64x128 .bf16) (x9 : Vec F S1x128 .f32) (x10 : Vec F S1x128 .f32) (x11 : Vec F S1x128 .f32) (x12 : Vec F S1x128 .f32) (x13 : Vec F S128x1 .bf16) (x14 : Vec F S1x1 .f32) :
    out0_15 x0 x1 x2 x3 x4 x5 x6 x7 x8 x9 x10 x11 x12 x13 x14 = k0_pay11 (k0_pay4 x0 x3 x1) (k0_pay5 x1 x2 x4 x5) (k0_pay6 x0 x3 x2 x4 x5) (k0_pay7 x0 x3) (k0_pay8 x2 x4 x5) (k0_pay9 x1 x6) (k0_pay10 x7) x8 x9 x10 x11 x12 := by
  unfold out0_15
  rw [View.canon_unit_zero zero_offsets]
  simp only [View.ld_unit_zero (S := S1024x1024) zero_offsets, View.ld_unit_zero (S := S1024x65) zero_offsets, View.ld_unit_zero (S := S1024x64) zero_offsets, View.ld_unit_zero (S := S1024x3) zero_offsets, View.ld_unit_zero (S := S3x64) zero_offsets, View.ld_unit_zero (S := S1x64) zero_offsets, View.ld_unit_zero (S := S64x128) zero_offsets, View.ld_unit_zero (S := S1x128) zero_offsets, View.ld_unit_zero (S := S128x1) zero_offsets, View.ld_unit_zero (S := S1x1) zero_offsets]

/-- The prediction column's block after the body: its one store's payload over the operand blocks themselves. -/
theorem out0_16_eq (x0 : Vec F S1024x1024 .i32) (x1 : Vec F S1024x64 .f32) (x2 : Vec F S1024x3 .f32) (x3 : Vec F S1024x65 .bf16) (x4 : Vec F S3x64 .bf16) (x5 : Vec F S1x64 .f32) (x6 : Vec F S64x128 .bf16) (x7 : Vec F S64x128 .bf16) (x8 : Vec F S64x128 .bf16) (x9 : Vec F S1x128 .f32) (x10 : Vec F S1x128 .f32) (x11 : Vec F S1x128 .f32) (x12 : Vec F S1x128 .f32) (x13 : Vec F S128x1 .bf16) (x14 : Vec F S1x1 .f32) :
    out0_16 x0 x1 x2 x3 x4 x5 x6 x7 x8 x9 x10 x11 x12 x13 x14 = k0_pay12 (k0_pay4 x0 x3 x1) (k0_pay5 x1 x2 x4 x5) (k0_pay6 x0 x3 x2 x4 x5) (k0_pay7 x0 x3) (k0_pay8 x2 x4 x5) (k0_pay9 x1 x6) (k0_pay10 x7) x8 x9 x10 x11 x12 x13 x14 := by
  unfold out0_16
  rw [View.canon_unit_zero zero_offsets]
  simp only [View.ld_unit_zero (S := S1024x1024) zero_offsets, View.ld_unit_zero (S := S1024x65) zero_offsets, View.ld_unit_zero (S := S1024x64) zero_offsets, View.ld_unit_zero (S := S1024x3) zero_offsets, View.ld_unit_zero (S := S3x64) zero_offsets, View.ld_unit_zero (S := S1x64) zero_offsets, View.ld_unit_zero (S := S64x128) zero_offsets, View.ld_unit_zero (S := S1x128) zero_offsets, View.ld_unit_zero (S := S128x1) zero_offsets, View.ld_unit_zero (S := S1x1) zero_offsets]

end Cert.KernelIdeal.Plumb

end
-- ==== Proof.ToArrays.lean ====
/-
  From the result blocks to the result arrays.

  Each of the two results — the hidden activations, 128 a row, and the prediction, one a row — is written back
  block by block: at grid point t the block of rows 1024·t … 1024·t + 1023.  The sixteen blocks tile the 16384
  rows, the point covering row r being r / 1024.  So if the block the body leaves at every point is the
  corresponding rows of ONE array (the hypothesis each theorem takes, stated entry by entry), the array ends
  holding exactly that one.
-/
import proofs.«123834_j38826504356124_2_alg».proof.Proof.BlockReads

noncomputable section

namespace Cert.KernelIdeal.Plumb

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-! ## The hidden activations: 128 lanes a row -/

/-- What point t writes back to the first result is rows 1024·t … of E, when the body's block is. -/
theorem flushed15_eq (c : Dev nD) (E : Vec F S16384x128 .f32)
    (hE : ∀ (t : Fin cfg0.N) (p : Fin 1024) (h : Fin 128),
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p h) = E (ix2 (rowAt t p) h))
    (t : Fin cfg0.N) :
    (dats m 0 c).flushed 15 t = ((cfg0.win 15).blk t).view.read (Elt F) E := by
  obtain ⟨h0, h1⟩ := (rows_index t).2.2.2.1
  show (cfg0.win 15).cut (grid0.coords t) ((dats m 0 c).after 15 t) = _
  rw [after0_15]
  funext j
  obtain ⟨p, h, rfl⟩ : ∃ (p : Fin 1024) (h : Fin 128), j = ix2 p h := ⟨j 0, j 1, eq_ix2 (n0 := 1024) (n1 := 128) j⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p h) = E (((cfg0.win 15).blk t).view.emb (ix2 p h))
  refine (hE t p h).trans (congrArg E (funext fun a => Fin.ext ?_))
  match a with
  | ⟨0, _⟩ => show 1024 * t.val + p.val = win0_15.index t (0 : Fin 2) * 1024 + 1 * p.val; rw [h0]; omega
  | ⟨1, _⟩ => show h.val = win0_15.index t (1 : Fin 2) * 128 + 1 * h.val; rw [h1]; omega

/-- An index of the first result is in point t's block iff each coordinate is in the block's range. -/
theorem mem_blk15 (t : Fin cfg0.N) (i : S16384x128.Idx) :
    i ∈ ((cfg0.win 15).blk t).view.set ↔ ∀ a : Fin 2, win0_15.index t a * S1024x128.size a ≤ (i a).val ∧ (i a).val < win0_15.index t a * S1024x128.size a + S1024x128.size a := by
  show i ∈ ((View.whole main_v24_0).slice (win0_15.rect t)).set ↔ _
  rw [View.set_slice_whole, Rect.mem_set_unit]
  exact Iff.rfl

/-- Every index of the first result is in the block of the point its row divided by 1024 names. -/
theorem cover15 (i : S16384x128.Idx) :
    ∃ t : Fin cfg0.N, (cfg0.win 15).flush t = true ∧ i ∈ ((cfg0.win 15).blk t).view.set := by
  have hi0 : (i 0).val < 16384 := (i 0).isLt
  have hi1 : (i 1).val < 128 := (i 1).isLt
  obtain ⟨t, ht⟩ : ∃ t : Fin cfg0.N, t.val = (i 0).val / 1024 :=
    ⟨⟨(i 0).val / 1024, by rw [show cfg0.N = 16 from N_0]; omega⟩, rfl⟩
  obtain ⟨h0, h1⟩ := (rows_index t).2.2.2.1
  refine ⟨t, flush0_15 t, ?_⟩
  rw [mem_blk15]
  intro a
  match a with
  | ⟨0, _⟩ => show win0_15.index t (0 : Fin 2) * 1024 ≤ (i 0).val ∧ (i 0).val < win0_15.index t (0 : Fin 2) * 1024 + 1024; rw [h0]; omega
  | ⟨1, _⟩ => show win0_15.index t (1 : Fin 2) * 128 ≤ (i 1).val ∧ (i 1).val < win0_15.index t (1 : Fin 2) * 128 + 128; rw [h1]; omega

/-- THE FIRST RESULT after the run is E, when at every point the body's block is the point's rows of E. -/
theorem arrAt15_eq (c : Dev nD) (E : Vec F S16384x128 .f32)
    (hE : ∀ (t : Fin cfg0.N) (p : Fin 1024) (h : Fin 128),
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p h) = E (ix2 (rowAt t p) h)) :
    (dats m 0 c).arrAt 15 cfg0.N = E :=
  (dats m 0 c).arrAt_eq_of_cover 15 E (fun t _ => flushed15_eq m c E hE t) cover15

/-! ## The prediction: one value a row -/

/-- What point t writes back to the second result is rows 1024·t … of Pc, when the body's block is. -/
theorem flushed16_eq (c : Dev nD) (Pc : Vec F S16384x1 .f32)
    (hP : ∀ (t : Fin cfg0.N) (p : Fin 1024),
      out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (0 : Fin 1)) = Pc (ix2 (rowAt t p) (0 : Fin 1)))
    (t : Fin cfg0.N) :
    (dats m 0 c).flushed 16 t = ((cfg0.win 16).blk t).view.read (Elt F) Pc := by
  obtain ⟨h0, h1⟩ := (rows_index t).2.2.2.2
  show (cfg0.win 16).cut (grid0.coords t) ((dats m 0 c).after 16 t) = _
  rw [after0_16]
  funext j
  obtain ⟨p, u, rfl⟩ : ∃ (p : Fin 1024) (u : Fin 1), j = ix2 p u := ⟨j 0, j 1, eq_ix2 (n0 := 1024) (n1 := 1) j⟩
  obtain rfl : u = 0 := Subsingleton.elim _ _
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (0 : Fin 1)) = Pc (((cfg0.win 16).blk t).view.emb (ix2 p (0 : Fin 1)))
  refine (hP t p).trans (congrArg Pc (funext fun a => Fin.ext ?_))
  match a with
  | ⟨0, _⟩ => show 1024 * t.val + p.val = win0_16.index t (0 : Fin 2) * 1024 + 1 * p.val; rw [h0]; omega
  | ⟨1, _⟩ => show (0 : Nat) = win0_16.index t (1 : Fin 2) * 1 + 1 * 0; rw [h1]

/-- An index of the second result is in point t's block iff each coordinate is in the block's range. -/
theorem mem_blk16 (t : Fin cfg0.N) (i : S16384x1.Idx) :
    i ∈ ((cfg0.win 16).blk t).view.set ↔ ∀ a : Fin 2, win0_16.index t a * S1024x1.size a ≤ (i a).val ∧ (i a).val < win0_16.index t a * S1024x1.size a + S1024x1.size a := by
  show i ∈ ((View.whole main_v24_1).slice (win0_16.rect t)).set ↔ _
  rw [View.set_slice_whole, Rect.mem_set_unit]
  exact Iff.rfl

/-- Every index of the second result is in the block of the point its row divided by 1024 names. -/
theorem cover16 (i : S16384x1.Idx) :
    ∃ t : Fin cfg0.N, (cfg0.win 16).flush t = true ∧ i ∈ ((cfg0.win 16).blk t).view.set := by
  have hi0 : (i 0).val < 16384 := (i 0).isLt
  have hi1 : (i 1).val < 1 := (i 1).isLt
  obtain ⟨t, ht⟩ : ∃ t : Fin cfg0.N, t.val = (i 0).val / 1024 :=
    ⟨⟨(i 0).val / 1024, by rw [show cfg0.N = 16 from N_0]; omega⟩, rfl⟩
  obtain ⟨h0, h1⟩ := (rows_index t).2.2.2.2
  refine ⟨t, flush0_16 t, ?_⟩
  rw [mem_blk16]
  intro a
  match a with
  | ⟨0, _⟩ => show win0_16.index t (0 : Fin 2) * 1024 ≤ (i 0).val ∧ (i 0).val < win0_16.index t (0 : Fin 2) * 1024 + 1024; rw [h0]; omega
  | ⟨1, _⟩ => show win0_16.index t (1 : Fin 2) * 1 ≤ (i 1).val ∧ (i 1).val < win0_16.index t (1 : Fin 2) * 1 + 1; rw [h1]; omega

/-- THE SECOND RESULT after the run is Pc, when at every point the body's block is the point's rows of Pc. -/
theorem arrAt16_eq (c : Dev nD) (Pc : Vec F S16384x1 .f32)
    (hP : ∀ (t : Fin cfg0.N) (p : Fin 1024),
      out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (0 : Fin 1)) = Pc (ix2 (rowAt t p) (0 : Fin 1))) :
    (dats m 0 c).arrAt 16 cfg0.N = Pc :=
  (dats m 0 c).arrAt_eq_of_cover 16 Pc (fun t _ => flushed16_eq m c Pc hP t) cover16

end Cert.KernelIdeal.Plumb

end
-- ==== Proof.Run.lean ====
/-
  The program's run, read at its two results.

  The program is: host operations, the region, then ONE host operation — the prediction, which the region leaves as
  a column [16384, 1], reshaped to the vector [16384].  After the run the hidden activations' array holds what the
  sixteen write-backs left in it; the vector holds the reshape of what they left in the column; and the eleven
  argument arrays are as launched (the skill targets and the difficulty features, which the region stages, are
  never written back; the other nine are written by no operation).  Stated from the two arrays' final contents as
  hypotheses, so that it does not depend on what the body computes.
-/
import proofs.«123834_j38826504356124_2_alg».proof.Proof.Gen.KernelIdeal.Frame
import Idealize.ShloMosaic.Lib.StableHlo.Run

noncomputable section

namespace Cert.KernelIdeal.Plumb

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The vector the host makes after the region: the reshape of the prediction column as the region left it. -/
theorem tail_main_v25 (c : Dev nD) :
    (Pipeline.afterTail₀ cfgs (dats m) 0 (V0 m) [hostOps1] c main_v25 : Vec F S16384 .f32)
      = shapeCast S16384 ((dats m 0 c).arrAt 16 cfg0.N : Vec F S16384x1 .f32) shapeCasts_S16384x1_S16384 := by
  have e : Pipeline.withArrays spec0 c (V0 m c) (fun w => (dats m 0 c).arrAt w cfg0.N) (Proc.devRef .tc main_v24_1)
      = (dats m 0 c).arrAt 16 cfg0.N :=
    Pipeline.withArrays_arr spec0 launch0.win.arr_inj c (V0 m c) (fun w => (dats m 0 c).arrAt w cfg0.N) 16
  unfold Pipeline.afterTail₀
  show StableHlo.after hostOps1 _ (Proc.devRef .tc main_v25) = _
  after_results
  exact congrArg (fun x : Vec F S16384x1 .f32 => shapeCast S16384 x shapeCasts_S16384x1_S16384) e

set_option maxHeartbeats 1000000 in
/-- THE RUN from the two result arrays' final contents: every weakly fair execution ends with the hidden
    activations at E, the prediction vector at the reshape of Pc, and the eleven arguments as launched. -/
theorem run_of_arrays (E : (c : Dev nD) → Vec F S16384x128 .f32) (Pc : (c : Dev nD) → Vec F S16384x1 .f32)
    (h15 : ∀ c, (dats m 0 c).arrAt 15 cfg0.N = E c) (h16 : ∀ c, (dats m 0 c).arrAt 16 cfg0.N = Pc c) :
    θ_run defs (onTc (τ := τ) (main (F := F))) ⟨m, fun _ => 0, ρ⟩ (fun r => ∀ c : Dev nD,
      r.2.mem ((c.tc : Thread nD τ).loc main_v24_0) = E c
      ∧ r.2.mem ((c.tc : Thread nD τ).loc main_v25) = shapeCast S16384 (Pc c) shapeCasts_S16384x1_S16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 15).trans (h15 c),
      (((h c).2 main_v25 (Pipeline.mem_restRefs_of main_v25 (by decide) (by decide))).trans (tail_main_v25 m c)).trans
        (congrArg (fun x : Vec F S16384x1 .f32 => shapeCast S16384 x shapeCasts_S16384x1_S16384) (h16 c)),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.Plumb

end
-- ==== Proof.KernelRun.lean ====
/-
  The program's run from what the body computes at one grid point.

  Given, for every device, ONE array E of 16384 × 128 hidden activations and ONE column Pc of 16384 predictions
  such that the blocks the body leaves at grid point t are rows 1024·t … 1024·t + 1023 of them, entry by entry,
  every weakly fair execution of the program ends with the first result at E, the second — the column reshaped to
  a vector — at the reshape of Pc, and the eleven arguments as launched: the sixteen blocks tile the arrays, and
  the one host operation after the region is that reshape.
-/
import proofs.«123834_j38826504356124_2_alg».proof.Proof.ToArrays
import proofs.«123834_j38826504356124_2_alg».proof.Proof.Run

noncomputable section

namespace Cert.KernelIdeal.Plumb

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (ρ : Dev nD → PrngReg)

/-- THE RUN from the body's two result blocks at a symbolic grid point. -/
theorem run (E : (c : Dev nD) → Vec F S16384x128 .f32) (Pc : (c : Dev nD) → Vec F S16384x1 .f32)
    (hE : ∀ (c : Dev nD) (t : Fin cfg0.N) (p : Fin 1024) (h : Fin 128),
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p h) = E c (ix2 (rowAt t p) h))
    (hP : ∀ (c : Dev nD) (t : Fin cfg0.N) (p : Fin 1024),
      out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (0 : Fin 1)) = Pc c (ix2 (rowAt t p) (0 : Fin 1))) :
    θ_run defs (onTc (τ := τ) (main (F := F))) ⟨m, fun _ => 0, ρ⟩ (fun r => ∀ c : Dev nD,
      r.2.mem ((c.tc : Thread nD τ).loc main_v24_0) = E c
      ∧ r.2.mem ((c.tc : Thread nD τ).loc main_v25) = shapeCast S16384 (Pc c) shapeCasts_S16384x1_S16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_of_arrays m ρ E Pc (fun c => arrAt15_eq m c (E c) (hE c)) (fun c => arrAt16_eq m c (Pc c) (hP c))

end Cert.KernelIdeal.Plumb

end
-- ==== Proof.HostArrays.lean ====
/-
  The arrays the host writes before the region, as the region finds them.

  Of the kernel's fifteen operands only two — the questions' skill targets and the difficulty features — are
  arguments of the program.  The others are results of host operations on the arguments: the question embeddings
  gathered at the question ids (a negative id wrapped by the table's length first); the skill embedding table with
  a column of ones appended — so that the one product of a row's targets with the table carries, in its last lane,
  the sum of the row's targets — rounded to bf16; the difficulty weights and the output weights rounded
  to bf16; and the three bias vectors viewed as one-row matrices.  Each theorem reads one such array, as the region
  is entered, as the composed term of those host operations applied to the argument arrays; the gather and the
  concatenation are kept as terms.  (The six pieces cut out of the stacked hidden-layer weights are in the sibling
  module on slices.)
-/
import proofs.«123834_j38826504356124_2_alg».proof.Proof.Gen.KernelIdeal.Frame
import Idealize.ShloMosaic.Lib.StableHlo.Run

noncomputable section

namespace Cert.KernelIdeal.Plumb

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The question ids wrapped into the embedding table's range, as a column: a negative id has the table's length,
    100000, added. -/
abbrev wrappedIds (ids : Vec F S16384 .i32) : Vec F S16384x1 .i32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 100000#32))) ids)

/-- Operand 1: the question embeddings, the rows of the embedding table at the wrapped question ids. -/
theorem V_main_v6 (c : Dev nD) :
    (V m c main_v6 : Vec F S16384x64 .f32)
      = Host.gather gather_S100000x64_S16384x1_S16384x64_1_0_n_n_0_1_164
          (m ((c : Thread nD τ).loc main_arg3) : Vec F S100000x64 .f32)
          (wrappedIds (m ((c : Thread nD τ).loc main_arg0) : Vec F S16384 .i32)) := by
  show StableHlo.after hostOps0 (fun b => m (c, b)) (Proc.devRef .tc main_v6) = _
  after_results

/-- Operand 3: the skill embedding table with a column of ones appended, rounded to bf16. -/
theorem V_main_v9 (c : Dev nD) :
    (V m c main_v9 : Vec F S1024x65 .bf16)
      = truncf .bf16 (concatenate S1024x65 1
          [⟨S1024x64, (m ((c : Thread nD τ).loc main_arg4) : Vec F S1024x64 .f32)⟩,
           ⟨S1024x1, (broadcastInDim S1024x1 ![] bcast_S_S1024x1 (constant (F := F) S_ .f32 0x3F800000#32) : Vec F S1024x1 .f32)⟩]
          concatenates_S1024x64_S1024x1_S1024x65_d1) bitsLt_bf16_f32 := by
  show StableHlo.after hostOps0 (fun b => m (c, b)) (Proc.devRef .tc main_v9) = _
  after_results

/-- Operand 4: the difficulty weights rounded to bf16. -/
theorem V_main_v10 (c : Dev nD) :
    (V m c main_v10 : Vec F S3x64 .bf16)
      = truncf .bf16 (m ((c : Thread nD τ).loc main_arg5) : Vec F S3x64 .f32) bitsLt_bf16_f32 := by
  show StableHlo.after hostOps0 (fun b => m (c, b)) (Proc.devRef .tc main_v10) = _
  after_results

/-- Operand 13: the output layer's column of weights rounded to bf16. -/
theorem V_main_v20 (c : Dev nD) :
    (V m c main_v20 : Vec F S128x1 .bf16)
      = truncf .bf16 (m ((c : Thread nD τ).loc main_arg9) : Vec F S128x1 .f32) bitsLt_bf16_f32 := by
  show StableHlo.after hostOps0 (fun b => m (c, b)) (Proc.devRef .tc main_v20) = _
  after_results

/-- Operand 5: the difficulty bias as a one-row matrix. -/
theorem V_main_v21 (c : Dev nD) :
    (V m c main_v21 : Vec F S1x64 .f32)
      = shapeCast S1x64 (m ((c : Thread nD τ).loc main_arg6) : Vec F S64 .f32) shapeCasts_S64_S1x64 := by
  show StableHlo.after hostOps0 (fun b => m (c, b)) (Proc.devRef .tc main_v21) = _
  after_results
  rfl

/-- Operand 12: the hidden layer's bias as a one-row matrix. -/
theorem V_main_v22 (c : Dev nD) :
    (V m c main_v22 : Vec F S1x128 .f32)
      = shapeCast S1x128 (m ((c : Thread nD τ).loc main_arg8) : Vec F S128 .f32) shapeCasts_S128_S1x128 := by
  show StableHlo.after hostOps0 (fun b => m (c, b)) (Proc.devRef .tc main_v22) = _
  after_results
  rfl

/-- Operand 14: the output layer's bias as a one-by-one matrix. -/
theorem V_main_v23 (c : Dev nD) :
    (V m c main_v23 : Vec F S1x1 .f32)
      = shapeCast S1x1 (m ((c : Thread nD τ).loc main_arg10) : Vec F S1 .f32) shapeCasts_S1_S1x1 := by
  show StableHlo.after hostOps0 (fun b => m (c, b)) (Proc.devRef .tc main_v23) = _
  after_results
  rfl

end Cert.KernelIdeal.Plumb

end
-- ==== Proof.HostSlices.lean ====
/-
  The six pieces the host cuts out of the hidden layer's weights before the region.

  The hidden layer's 195 × 128 weight array stacks, row over row, one 64-row block for each of the three 64-lane
  embeddings the kernel forms of a row (of its question, of its skills, of its difficulty) and one row for each of
  their three pairwise inner products.  The kernel multiplies each part by its own piece: the host slices the
  pieces out (rows 0–63, 64–127, 128–191, then rows 192, 193, 194) and rounds the three blocks to bf16.  Each
  theorem reads one of the six arrays, as the region is entered, as that slice of the argument.
-/
import proofs.«123834_j38826504356124_2_alg».proof.Proof.Gen.KernelIdeal.Frame
import Idealize.ShloMosaic.Lib.StableHlo.Run

noncomputable section

namespace Cert.KernelIdeal.Plumb

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Operand 6: rows 0–63 of the hidden layer's weights, those of the question embedding, rounded to bf16. -/
theorem V_main_v12 (c : Dev nD) :
    (V m c main_v12 : Vec F S64x128 .bf16)
      = truncf .bf16 (extractStridedSlice S64x128 ![0, 0] (m ((c : Thread nD τ).loc main_arg7) : Vec F S195x128 .f32) slices_S195x128_S64x128_0_0) bitsLt_bf16_f32 := by
  show StableHlo.after hostOps0 (fun b => m (c, b)) (Proc.devRef .tc main_v12) = _
  after_results

/-- Operand 7: rows 64–127 of the hidden layer's weights, those of the skills' embedding, rounded to bf16. -/
theorem V_main_v14 (c : Dev nD) :
    (V m c main_v14 : Vec F S64x128 .bf16)
      = truncf .bf16 (extractStridedSlice S64x128 ![64, 0] (m ((c : Thread nD τ).loc main_arg7) : Vec F S195x128 .f32) slices_S195x128_S64x128_64_0) bitsLt_bf16_f32 := by
  show StableHlo.after hostOps0 (fun b => m (c, b)) (Proc.devRef .tc main_v14) = _
  after_results

/-- Operand 8: rows 128–191 of the hidden layer's weights, those of the difficulty embedding, rounded to bf16. -/
theorem V_main_v16 (c : Dev nD) :
    (V m c main_v16 : Vec F S64x128 .bf16)
      = truncf .bf16 (extractStridedSlice S64x128 ![128, 0] (m ((c : Thread nD τ).loc main_arg7) : Vec F S195x128 .f32) slices_S195x128_S64x128_128_0) bitsLt_bf16_f32 := by
  show StableHlo.after hostOps0 (fun b => m (c, b)) (Proc.devRef .tc main_v16) = _
  after_results

/-- Operand 9: row 192 of the hidden layer's weights, that of the product of question and skill embeddings. -/
theorem V_main_v17 (c : Dev nD) :
    (V m c main_v17 : Vec F S1x128 .f32)
      = extractStridedSlice S1x128 ![192, 0] (m ((c : Thread nD τ).loc main_arg7) : Vec F S195x128 .f32) slices_S195x128_S1x128_192_0 := by
  show StableHlo.after hostOps0 (fun b => m (c, b)) (Proc.devRef .tc main_v17) = _
  after_results

/-- Operand 10: row 193 of the hidden layer's weights, that of the product of question and difficulty embeddings. -/
theorem V_main_v18 (c : Dev nD) :
    (V m c main_v18 : Vec F S1x128 .f32)
      = extractStridedSlice S1x128 ![193, 0] (m ((c : Thread nD τ).loc main_arg7) : Vec F S195x128 .f32) slices_S195x128_S1x128_193_0 := by
  show StableHlo.after hostOps0 (fun b => m (c, b)) (Proc.devRef .tc main_v18) = _
  after_results

/-- Operand 11: row 194 of the hidden layer's weights, that of the product of skill and difficulty embeddings. -/
theorem V_main_v19 (c : Dev nD) :
    (V m c main_v19 : Vec F S1x128 .f32)
      = extractStridedSlice S1x128 ![194, 0] (m ((c : Thread nD τ).loc main_arg7) : Vec F S195x128 .f32) slices_S195x128_S1x128_194_0 := by
  show StableHlo.after hostOps0 (fun b => m (c, b)) (Proc.devRef .tc main_v19) = _
  after_results

end Cert.KernelIdeal.Plumb

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.Words.lean ====
/-
  Two float words at the ideal values: the single-precision pattern of 1.0 denotes the extended real 1, and a
  ones column therefore multiplies every entry of a row by 1.
-/
import Idealize.ShloMosaic.PureOps.Ideal
import Idealize.ShloMosaic.PureOps.Ideal.Laws

noncomputable section

namespace Cert.Words

open Idealize.ShloMosaic

/-- The single-precision word of 1.0 (sign 0, biased exponent 127, mantissa 0) denotes 1. -/
theorem ofBits_one_f32 : Ideal.ofBits .f32 0x3F800000#32 = 1 := by
  simp [Ideal.ofBits, Ideal.ieee, -EReal.coe_mul]; norm_num

end Cert.Words

end
-- ==== Proof.Operands.lean ====
/-
  What the kernel's fifteen operand blocks hold, entry by entry, in terms of the argument arrays.

  At a grid point t, row p of a row-blocked operand is row 1024·t + p of its array.  The arrays the host wrote
  before the launch are read through what the host did: the question embeddings are the gather of the
  embedding table at the wrapped question ids — the same operation on the same operands as the reference's,
  kept whole, never opened; the skill embeddings with a column of ones appended read, at a column below 64,
  the embeddings and, at column 64, the word of 1.0, which denotes 1; a change of float format is the identity
  at the ideal values; the hidden layer's weight matrix is cut into three bands of 64 rows and three single
  rows, each read as the matrix at the row offset plus the row; the three biases are vectors laid out as rows.
-/
import proofs.«123834_j38826504356124_2_alg».proof.Proof.Gen.KernelIdeal.Frame
import proofs.«123834_j38826504356124_2_alg».proof.Proof.Gen.ReferenceIdeal.Read
import proofs.«123834_j38826504356124_2_alg».proof.Proof.HostArrays
import proofs.«123834_j38826504356124_2_alg».proof.Proof.HostSlices
import proofs.«123834_j38826504356124_2_alg».proof.Proof.BlockReads
import proofs.«123834_j38826504356124_2_alg».proof.Proof.LibRows
import proofs.«123834_j38826504356124_2_alg».proof.Proof.Words
import Idealize.ShloMosaic.Lib.ValueIdx
import Idealize.ShloMosaic.Lib.Pipeline.Value

noncomputable section

namespace Cert.KernelIdeal.Operands

open Idealize.ShloMosaic Idealize.ShloMosaic.TcCoe Idealize.ShloMosaic.ValueIdx Idealize.SL.Sem
open Cert.KernelIdeal Cert.KernelIdeal.Gen Cert.KernelIdeal.Plumb

variable (m : (ℓ : Loc nD τ sig) → Buf (Elt Ideal) ℓ) (c : Dev nD) (t : Fin cfg0.N)

/-- A change of float format is the identity at the ideal values, entry by entry. -/
theorem trunc_at {s : Shape} (a : FVec Ideal s .f32) (i : s.Idx) :
    ((truncf .bf16 a bitsLt_bf16_f32 : FVec Ideal s .bf16) i : EReal) = a i := rfl

/-- Row p of the block of skill targets is row 1024·t + p of the targets. -/
theorem targets_row (p : Fin 1024) (j : Fin 1024) :
    (iblk m c 0 t : Vec Ideal S1024x1024 .i32) (ix2 p j) = (m ((c : Thread nD τ).loc main_arg1) : Vec Ideal S16384x1024 .i32) (ix2 (rowAt t p) j) :=
  (iblk0_apply m c t p j).trans (congrFun (V_main_arg1 m c) _)

/-- Row p of the block of question embeddings is row 1024·t + p of the reference's gathered embeddings. -/
theorem question_row (p : Fin 1024) (k : Fin 64) :
    ((iblk m c 1 t : Vec Ideal S1024x64 .f32) (ix2 p k) : EReal)
      = Cert.ReferenceIdeal.Read.val_main_v12 (F := Ideal) (m ((c : Thread nD τ).loc main_arg0) : Vec Ideal S16384 .i32) (m ((c : Thread nD τ).loc main_arg3) : Vec Ideal S100000x64 .f32) (ix2 (rowAt t p) k) := by
  refine (iblk1_apply m c t p k).trans ?_
  rw [V_main_v6]
  rfl

/-- Row p of the block of difficulty features is row 1024·t + p of the features. -/
theorem features_row (p : Fin 1024) (j : Fin 3) :
    ((iblk m c 2 t : Vec Ideal S1024x3 .f32) (ix2 p j) : EReal) = (m ((c : Thread nD τ).loc main_arg2) : Vec Ideal S16384x3 .f32) (ix2 (rowAt t p) j) :=
  (iblk2_apply m c t p j).trans (congrFun (V_main_arg2 m c) _)

/-- Columns 0–63 of the augmented skill embeddings are the skill embeddings. -/
theorem skills_col (j : Fin 1024) (k : Fin 64) :
    ((iblk m c 3 t : Vec Ideal S1024x65 .bf16) (ix2 j (⟨k.val, by omega⟩ : Fin 65)) : EReal)
      = (m ((c : Thread nD τ).loc main_arg4) : Vec Ideal S1024x64 .f32) (ix2 j k) := by
  rw [iblk3_eq, V_main_v9]
  refine (trunc_at _ _).trans ?_
  refine concatenate_pair_apply_left (t := S1024x65) (1 : Fin 2) _ _ concatenates_S1024x64_S1024x1_S1024x65_d1 _ rfl (ix2 j k) (fun b => ?_)
  match b with
  | ⟨0, _⟩ => rfl
  | ⟨1, _⟩ => rfl

/-- Column 64 of the augmented skill embeddings is all ones. -/
theorem skills_ones (j : Fin 1024) :
    ((iblk m c 3 t : Vec Ideal S1024x65 .bf16) (ix2 j (⟨64, by omega⟩ : Fin 65)) : EReal) = (1 : EReal) := by
  rw [iblk3_eq, V_main_v9]
  refine (trunc_at _ _).trans ?_
  refine (concatenate_pair_apply_right (t := S1024x65) (1 : Fin 2) _ _ concatenates_S1024x64_S1024x1_S1024x65_d1 _ rfl rfl
    (ix2 j (0 : Fin 1)) (fun b hb => ?_) ?_).trans ?_
  · match b with
    | ⟨0, _⟩ => rfl
    | ⟨1, _⟩ => exact absurd rfl hb
  · rfl
  · refine (broadcastInDim_apply _ bcast_S_S1024x1 _ _ ix0 (fun a => a.elim0)).trans ?_
    exact Cert.Words.ofBits_one_f32

/-- The difficulty weights, whatever their float format. -/
theorem diffw_entry (j : Fin 3) (k : Fin 64) :
    ((iblk m c 4 t : Vec Ideal S3x64 .bf16) (ix2 j k) : EReal) = (m ((c : Thread nD τ).loc main_arg5) : Vec Ideal S3x64 .f32) (ix2 j k) := by
  rw [iblk4_eq, V_main_v10]
  rfl

/-- The difficulty bias as a row. -/
theorem diffb_entry (k : Fin 64) :
    ((iblk m c 5 t : Vec Ideal S1x64 .f32) (ix2 0 k) : EReal) = (m ((c : Thread nD τ).loc main_arg6) : Vec Ideal S64 .f32) (ix1 k) := by
  rw [iblk5_eq, V_main_v21]
  exact Cert.Lib.Rows.shapeCast_vec_row_apply _ _ k

/-- The first band of the hidden layer's weights: rows 0–63. -/
theorem band0_entry (k : Fin 64) (h : Fin 128) :
    ((iblk m c 6 t : Vec Ideal S64x128 .bf16) (ix2 k h) : EReal)
      = (m ((c : Thread nD τ).loc main_arg7) : Vec Ideal S195x128 .f32) (ix2 (⟨k.val, by omega⟩ : Fin 195) h) := by
  rw [iblk6_eq, V_main_v12]
  refine (trunc_at _ _).trans ?_
  refine (Cert.Lib.Rows.slice_rows_apply (o := 0) _ _ k h (by omega)).trans ?_
  exact congrArg _ (congrArg₂ ix2 (Fin.ext (by show 0 + k.val = k.val; omega)) rfl)

/-- The second band: rows 64–127. -/
theorem band1_entry (k : Fin 64) (h : Fin 128) :
    ((iblk m c 7 t : Vec Ideal S64x128 .bf16) (ix2 k h) : EReal)
      = (m ((c : Thread nD τ).loc main_arg7) : Vec Ideal S195x128 .f32) (ix2 (⟨64 + k.val, by omega⟩ : Fin 195) h) := by
  rw [iblk7_eq, V_main_v14]
  refine (trunc_at _ _).trans ?_
  exact Cert.Lib.Rows.slice_rows_apply (o := 64) _ _ k h (by omega)

/-- The third band: rows 128–191. -/
theorem band2_entry (k : Fin 64) (h : Fin 128) :
    ((iblk m c 8 t : Vec Ideal S64x128 .bf16) (ix2 k h) : EReal)
      = (m ((c : Thread nD τ).loc main_arg7) : Vec Ideal S195x128 .f32) (ix2 (⟨128 + k.val, by omega⟩ : Fin 195) h) := by
  rw [iblk8_eq, V_main_v16]
  refine (trunc_at _ _).trans ?_
  exact Cert.Lib.Rows.slice_rows_apply (o := 128) _ _ k h (by omega)

/-- Weight row 192, the question–skill product's. -/
theorem wrow192_entry (h : Fin 128) :
    ((iblk m c 9 t : Vec Ideal S1x128 .f32) (ix2 0 h) : EReal)
      = (m ((c : Thread nD τ).loc main_arg7) : Vec Ideal S195x128 .f32) (ix2 (⟨192, by omega⟩ : Fin 195) h) := by
  rw [iblk9_eq, V_main_v17]
  exact Cert.Lib.Rows.slice_rows_apply (o := 192) _ _ (0 : Fin 1) h (by omega)

/-- Weight row 193, the question–difficulty product's. -/
theorem wrow193_entry (h : Fin 128) :
    ((iblk m c 10 t : Vec Ideal S1x128 .f32) (ix2 0 h) : EReal)
      = (m ((c : Thread nD τ).loc main_arg7) : Vec Ideal S195x128 .f32) (ix2 (⟨193, by omega⟩ : Fin 195) h) := by
  rw [iblk10_eq, V_main_v18]
  exact Cert.Lib.Rows.slice_rows_apply (o := 193) _ _ (0 : Fin 1) h (by omega)

/-- Weight row 194, the skill–difficulty product's. -/
theorem wrow194_entry (h : Fin 128) :
    ((iblk m c 11 t : Vec Ideal S1x128 .f32) (ix2 0 h) : EReal)
      = (m ((c : Thread nD τ).loc main_arg7) : Vec Ideal S195x128 .f32) (ix2 (⟨194, by omega⟩ : Fin 195) h) := by
  rw [iblk11_eq, V_main_v19]
  exact Cert.Lib.Rows.slice_rows_apply (o := 194) _ _ (0 : Fin 1) h (by omega)

/-- The hidden layer's bias as a row. -/
theorem hidb_entry (h : Fin 128) :
    ((iblk m c 12 t : Vec Ideal S1x128 .f32) (ix2 0 h) : EReal) = (m ((c : Thread nD τ).loc main_arg8) : Vec Ideal S128 .f32) (ix1 h) := by
  rw [iblk12_eq, V_main_v22]
  exact Cert.Lib.Rows.shapeCast_vec_row_apply _ _ h

/-- The output weights, whatever their float format. -/
theorem outw_entry (h : Fin 128) (z : Fin 1) :
    ((iblk m c 13 t : Vec Ideal S128x1 .bf16) (ix2 h z) : EReal) = (m ((c : Thread nD τ).loc main_arg9) : Vec Ideal S128x1 .f32) (ix2 h z) := by
  rw [iblk13_eq, V_main_v20]
  rfl

/-- The output bias as a one-by-one matrix. -/
theorem outb_entry :
    ((iblk m c 14 t : Vec Ideal S1x1 .f32) (ix2 0 (0 : Fin 1)) : EReal) = (m ((c : Thread nD τ).loc main_arg10) : Vec Ideal S1 .f32) (ix1 (0 : Fin 1)) := by
  rw [iblk14_eq, V_main_v23]
  exact Cert.Lib.Rows.shapeCast_vec_row_apply _ _ (0 : Fin 1)

end Cert.KernelIdeal.Operands

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«123834_j38826504356124_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«123834_j38826504356124_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibColSlices.lean ====
/-
  A block of consecutive columns cut out of a matrix, read at an index.

  Columns o … o + C' − 1 of a matrix [R, C], as a unit-stride slice at offsets (0, o), read at (p, q) the matrix at
  (p, o + q).  General: any extents, offset and entry type.  (The twin for a block of rows is a slice at offsets
  (o, 0), read at (q, k) as the matrix at (o + q, k).)
-/
import Idealize.ShloMosaic.Lib.ValueIdx
import Idealize.ShloMosaic.Lib.Pipeline.Value

noncomputable section

namespace Cert.Lib.ColSlices

open Idealize.ShloMosaic Idealize.ShloMosaic.ValueIdx

variable {α : Type}

/-- Columns o … o + C' − 1 of a matrix [R, C], read at (p, q), are the matrix at (p, o + q). -/
theorem slice_cols_apply {R C C' o : Nat} (x : (⟨2, ![R, C]⟩ : Shape).Idx → α)
    (h : (⟨2, ![R, C]⟩ : Shape).Slices ![0, o] ⟨2, ![R, C']⟩) (p : Fin R) (q : Fin C') (hq : o + q.val < C) :
    extractStridedSlice ⟨2, ![R, C']⟩ ![0, o] x h (ix2 p q) = x (ix2 p ⟨o + q.val, hq⟩) :=
  extractStridedSlice_apply ![0, o] x h (ix2 p q) (ix2 p ⟨o + q.val, hq⟩) (fun a => by
    match a with
    | ⟨0, _⟩ => show p.val = 0 + p.val; omega
    | ⟨1, _⟩ => rfl)

end Cert.Lib.ColSlices

end
-- ==== Proof.StageSkill.lean ====
/-
  The mean skill embedding of a row, computed with the row count folded into the product.

  The reference divides the product t · S (the 0/1 skill targets of a row against the 1024 × 64 skill
  embeddings) by the row's count, the sum of its targets.  The kernel appends a column of ones to S and takes
  ONE product t · [S | 1] of 65 columns: its first 64 columns are t · S and its last column is the sum over j of
  t (r, j) · 1, which is the count because x · 1 = x on the extended reals.  The quotient of column k by the
  last column, spread over the lanes, is then the reference's quotient, entry by entry: both are
  (∑ j, t (r, j) · S (j, k)) divided by (∑ j, t (r, j)) with the same division, whatever the count (zero
  included).  The integer targets become extended reals exactly, whatever float format the cast names.
-/
import proofs.«123834_j38826504356124_2_alg».proof.Proof.Gen.KernelIdeal.Skeleton
import proofs.«123834_j38826504356124_2_alg».proof.Proof.Gen.ReferenceIdeal.Read
import proofs.«123834_j38826504356124_2_alg».proof.Proof.LibDotBlocks
import proofs.«123834_j38826504356124_2_alg».proof.Proof.LibColumns
import proofs.«123834_j38826504356124_2_alg».proof.Proof.LibColSlices
import proofs.«123834_j38826504356124_2_alg».proof.Proof.Words
import Idealize.ShloMosaic.Lib.ValueIdx
import Idealize.ShloMosaic.Lib.Pipeline.Value

noncomputable section

namespace Cert.Bridge

open Idealize.ShloMosaic Idealize.ShloMosaic.ValueIdx Idealize.SL.Sem

/-- Entry (p, k) of the block's mean skill embedding is entry (r, k) of the reference's, when row p of the block
    of targets is row r of the whole array, columns 0–63 of the augmented embeddings are the embeddings and
    column 64 is all ones. -/
theorem skill_stage
    (x0 : Vec Ideal Cert.KernelIdeal.S1024x1024 .i32) (x3 : Vec Ideal Cert.KernelIdeal.S1024x65 .bf16)
    (X1 : (⟨Cert.ReferenceIdeal.S16384x1024, .i32⟩ : BufTy).Contents (Elt Ideal))
    (X4 : (⟨Cert.ReferenceIdeal.S1024x64, .f32⟩ : BufTy).Contents (Elt Ideal))
    (p : Fin 1024) (r : Fin 16384) (k : Fin 64)
    (h0 : ∀ j : Fin 1024, x0 (ix2 p j) = X1 (ix2 r j))
    (h3 : ∀ j : Fin 1024, (x3 (ix2 j (⟨k.val, by omega⟩ : Fin 65)) : EReal) = X4 (ix2 j k))
    (h3one : ∀ j : Fin 1024, (x3 (ix2 j (⟨64, by omega⟩ : Fin 65)) : EReal) = 1) :
    Cert.KernelIdeal.Gen.k0_pay1 (F := Ideal) x0 x3 (ix2 p k)
      = Cert.ReferenceIdeal.Read.val_main_v5 (F := Ideal) X1 X4 (ix2 r k) := by
  have hx : ∀ j : Fin 1024, ((sitofp .bf16 x0 : FVec Ideal Cert.KernelIdeal.S1024x1024 .bf16) (ix2 p j) : EReal)
      = Cert.ReferenceIdeal.Read.val_main_v0 (F := Ideal) X1 (ix2 r j) := fun j => by
    show FloatOps.sitofp (F := Ideal) .bf16 (x0 (ix2 p j)) = FloatOps.sitofp (F := Ideal) .f32 (X1 (ix2 r j))
    rw [h0 j]; rfl
  unfold Cert.KernelIdeal.Gen.k0_pay1
  rw [Cert.ReferenceIdeal.Read.val_main_v5_apply]
  show Ideal.div _ _ = Ideal.div _ _
  refine congrArg₂ Ideal.div ?_ ?_
  · -- the numerator: column k of the 65-column product is column k of the reference's product
    rw [Cert.Lib.ColSlices.slice_cols_apply (o := 0) _ _ p k (by omega)]
    unfold Cert.ReferenceIdeal.Read.val_main_v3
    refine Cert.Lib.DotBlocks.matmul_block_eq_dotGeneral (M := 16384) (K := 1024) (N := 64) none none
      (Cert.ReferenceIdeal.Read.val_main_v0 (F := Ideal) X1) X4 _ _ p (⟨0 + k.val, by omega⟩ : Fin 65) r k hx (fun j => ?_)
    rw [shapeCast_self]
    have := h3 j
    simpa using this
  · -- the denominator: column 64 of the product is the row's count
    rw [Cert.Columns.broadcastTo_a1_ab_apply _ _ p k 0,
      Cert.Lib.ColSlices.slice_cols_apply (o := 64) _ _ p (0 : Fin 1) (by omega)]
    show matmul (DotDims.plain 1024 1024 65) none _ _ (constant (F := Ideal) ⟨2, ![1024, 65]⟩ .f32 0x00000000#32) (ix2 p _) = _
    rw [Cert.Lib.PlainDot.matmul_plain_zero_apply,
      Cert.ReferenceIdeal.Read.val_main_v4_apply, Cert.ReferenceIdeal.Read.val_main_v2_apply,
      Cert.ReferenceIdeal.Read.val_main_v1_apply, Cert.ReferenceIdeal.Read.val_main_cst_apply]
    show _ = Ideal.ofBits .f32 0x00000000#32 + _
    rw [Ideal.ofBits_zero_f32, zero_add]
    refine Finset.sum_congr rfl fun j _ => ?_
    rw [shapeCast_self]
    have e1 : (x3 (ix2 j (⟨64 + (0 : Fin 1).val, by omega⟩ : Fin 65)) : EReal) = 1 := h3one j
    rw [e1, mul_one, hx j]
    exact congrArg _ (funext fun a => Fin.ext (by match a with | ⟨0, _⟩ => rfl | ⟨1, _⟩ => rfl))

end Cert.Bridge

end
-- ==== Proof.StageDiff.lean ====
/-
  The difficulty projection, row by row.

  The kernel computes, for a block of 1024 rows, a = d · W + b: the block's three difficulty features times
  the 3 × 64 weight matrix on the matrix unit (into a zero accumulator), plus the bias row spread down the
  rows.  The reference computes the same for all 16384 rows at once with a host product and a broadcast
  bias.  At the ideal values both are, at row r and column k, the sum over the three features of
  d (r, j) · W (j, k), plus b (k): entry (p, k) of the block is entry (r, k) of the whole array as soon as row p
  of the block is row r of the whole feature array.  No finiteness is used.
-/
import proofs.«123834_j38826504356124_2_alg».proof.Proof.Gen.KernelIdeal.Skeleton
import proofs.«123834_j38826504356124_2_alg».proof.Proof.Gen.ReferenceIdeal.Read
import proofs.«123834_j38826504356124_2_alg».proof.Proof.LibDotBlocks
import proofs.«123834_j38826504356124_2_alg».proof.Proof.LibRows
import Idealize.ShloMosaic.Lib.ValueIdx
import Idealize.ShloMosaic.Lib.Pipeline.Value

noncomputable section

namespace Cert.Bridge

open Idealize.ShloMosaic Idealize.ShloMosaic.ValueIdx Idealize.SL.Sem

/-- Entry (p, k) of the block's projection is entry (r, k) of the reference's. -/
theorem diff_stage
    (x2 : Vec Ideal Cert.KernelIdeal.S1024x3 .f32) (x4 : Vec Ideal Cert.KernelIdeal.S3x64 .bf16)
    (x5 : Vec Ideal Cert.KernelIdeal.S1x64 .f32)
    (X2 : (⟨Cert.ReferenceIdeal.S16384x3, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (p : Fin 1024) (r : Fin 16384) (k : Fin 64)
    (h2 : ∀ j : Fin 3, (x2 (ix2 p j) : EReal) = X2 (ix2 r j))
    (h4 : ∀ j : Fin 3, (x4 (ix2 j k) : EReal) = X5 (ix2 j k))
    (h5 : (x5 (ix2 0 k) : EReal) = X6 (ix1 k)) :
    Cert.KernelIdeal.Gen.k0_pay3 (F := Ideal) x2 x4 x5 (ix2 p k)
      = Cert.ReferenceIdeal.Read.val_main_v16 (F := Ideal) X2 X5 X6 (ix2 r k) := by
  unfold Cert.KernelIdeal.Gen.k0_pay3
  rw [Cert.ReferenceIdeal.Read.val_main_v16_apply]
  show _ + _ = _ + _
  refine congrArg₂ (· + ·) ?_ ?_
  · unfold Cert.ReferenceIdeal.Read.val_main_v13
    refine Cert.Lib.DotBlocks.matmul_block_eq_dotGeneral (M := 16384) (K := 3) (N := 64) none none X2 X5 _ _ p k r k
      (fun j => h2 j) (fun j => ?_)
    rw [shapeCast_self]
    exact h4 j
  · rw [Cert.Lib.Rows.broadcastTo_row_apply, shapeCast_self, h5,
      Cert.ReferenceIdeal.Read.val_main_v15_apply, Cert.ReferenceIdeal.Read.val_main_v14_apply]
    exact congrArg X6 (funext fun a => Fin.ext (by match a with | ⟨0, _⟩ => rfl))

end Cert.Bridge

end
-- ==== Proof.StageProducts.lean ====
/-
  The three pairwise inner products of a row's signals.

  With q the row's question embedding, s its mean skill embedding and a its difficulty projection (64 lanes
  each), the product layer takes ⟨q, s⟩, ⟨q, a⟩ and ⟨s, a⟩.  The kernel multiplies lane by lane, sums the 64
  lanes of each row and keeps the result as a column; the reference multiplies, sums over axis 1 from the
  initial value 0 and broadcasts to a column.  At the ideal values both are the plain sum over the 64 lanes of
  the products, so the block's entry (p, 0) is the whole array's entry (r, 0) as soon as the two factors agree
  lane by lane on that row.  Only 0 + x = x is used.
-/
import proofs.«123834_j38826504356124_2_alg».proof.Proof.Gen.KernelIdeal.Skeleton
import proofs.«123834_j38826504356124_2_alg».proof.Proof.Gen.ReferenceIdeal.Read
import proofs.«123834_j38826504356124_2_alg».proof.Proof.LibColumns
import Idealize.ShloMosaic.Lib.ValueIdx
import Idealize.ShloMosaic.Lib.Pipeline.Value

noncomputable section

namespace Cert.Bridge

open Idealize.ShloMosaic Idealize.ShloMosaic.ValueIdx Idealize.SL.Sem

/-- A lane-by-lane product of two [1024, 64] arrays summed over the lanes and kept as a column reads, at row p,
    the sum over the lanes of the products. -/
theorem lane_dot (u v : FVec Ideal Cert.KernelIdeal.S1024x64 .f32) (hr : Cert.KernelIdeal.S1024x64.Reduces [1] Cert.KernelIdeal.S1024)
    (hφ : FKind.Formats .f32) (hacc : (0x00000000#32 : BitVec FTy.f32.bits) = FKind.add.neutral .f32 hφ)
    (hs : Cert.KernelIdeal.S1024.ShapeCasts Cert.KernelIdeal.S1024x1) (p : Fin 1024) (z : Fin 1) :
    (shapeCast Cert.KernelIdeal.S1024x1 (multiReduction .add [1] Cert.KernelIdeal.S1024 (mulf u v) 0x00000000#32 hr hφ hacc) hs
        : FVec Ideal Cert.KernelIdeal.S1024x1 .f32) (ix2 p z)
      = ∑ k : Fin 64, u (ix2 p k) * v (ix2 p k) := by
  refine (Cert.Columns.shapeCast_a_a1_apply _ hs p z).trans ?_
  exact Cert.Columns.laneSum_apply (mulf u v) _ hr hφ hacc p

/-- The coordinates the reference's row sum reads: row r, lane k. -/
theorem idx_row_lane (r : Fin 16384) (z : Fin 1) (k : Fin 64) :
    Cert.ReferenceIdeal.Read.idx_main_v18 (Cert.ReferenceIdeal.Read.idx_main_v19 (ix2 r z)) k = ix2 r k :=
  funext fun a => Fin.ext (by match a with | ⟨0, _⟩ => rfl | ⟨1, _⟩ => rfl)

/-- ⟨q, s⟩: the block's column at row p is the reference's at row r. -/
theorem prod_qs_stage
    (x0 : Vec Ideal Cert.KernelIdeal.S1024x1024 .i32) (x3 : Vec Ideal Cert.KernelIdeal.S1024x65 .bf16) (x1 : Vec Ideal Cert.KernelIdeal.S1024x64 .f32)
    (X0 : (⟨Cert.ReferenceIdeal.S16384, .i32⟩ : BufTy).Contents (Elt Ideal))
    (X1 : (⟨Cert.ReferenceIdeal.S16384x1024, .i32⟩ : BufTy).Contents (Elt Ideal))
    (X3 : (⟨Cert.ReferenceIdeal.S100000x64, .f32⟩ : BufTy).Contents (Elt Ideal))
    (X4 : (⟨Cert.ReferenceIdeal.S1024x64, .f32⟩ : BufTy).Contents (Elt Ideal))
    (p : Fin 1024) (r : Fin 16384) (z : Fin 1)
    (hq : ∀ k : Fin 64, (x1 (ix2 p k) : EReal) = Cert.ReferenceIdeal.Read.val_main_v12 (F := Ideal) X0 X3 (ix2 r k))
    (hs : ∀ k : Fin 64, Cert.KernelIdeal.Gen.k0_pay1 (F := Ideal) x0 x3 (ix2 p k) = Cert.ReferenceIdeal.Read.val_main_v5 (F := Ideal) X1 X4 (ix2 r k)) :
    Cert.KernelIdeal.Gen.k0_pay4 (F := Ideal) x0 x3 x1 (ix2 p z) = Cert.ReferenceIdeal.Read.val_main_v19 (F := Ideal) X0 X1 X3 X4 (ix2 r z) := by
  unfold Cert.KernelIdeal.Gen.k0_pay4
  refine (lane_dot _ _ _ _ _ _ p z).trans ?_
  rw [Cert.ReferenceIdeal.Read.val_main_v19_apply, Cert.ReferenceIdeal.Read.val_main_v18_apply, Cert.ReferenceIdeal.Read.val_main_cst_1_apply]
  show _ = Ideal.ofBits .f32 0x00000000#32 + _
  rw [Ideal.ofBits_zero_f32, zero_add]
  refine Finset.sum_congr rfl fun k _ => ?_
  rw [idx_row_lane, Cert.ReferenceIdeal.Read.val_main_v17_apply]
  show _ * _ = _ * _
  refine congrArg₂ (· * ·) ?_ (hs k)
  unfold Cert.KernelIdeal.Gen.k0_pay2
  rw [shapeCast_self]
  exact hq k

/-- ⟨q, a⟩: the block's column at row p is the reference's at row r. -/
theorem prod_qa_stage
    (x1 : Vec Ideal Cert.KernelIdeal.S1024x64 .f32) (x2 : Vec Ideal Cert.KernelIdeal.S1024x3 .f32) (x4 : Vec Ideal Cert.KernelIdeal.S3x64 .bf16)
    (x5 : Vec Ideal Cert.KernelIdeal.S1x64 .f32)
    (X0 : (⟨Cert.ReferenceIdeal.S16384, .i32⟩ : BufTy).Contents (Elt Ideal))
    (X2 : (⟨Cert.ReferenceIdeal.S16384x3, .f32⟩ : BufTy).Contents (Elt Ideal))
    (X3 : (⟨Cert.ReferenceIdeal.S100000x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (p : Fin 1024) (r : Fin 16384) (z : Fin 1)
    (hq : ∀ k : Fin 64, (x1 (ix2 p k) : EReal) = Cert.ReferenceIdeal.Read.val_main_v12 (F := Ideal) X0 X3 (ix2 r k))
    (ha : ∀ k : Fin 64, Cert.KernelIdeal.Gen.k0_pay3 (F := Ideal) x2 x4 x5 (ix2 p k) = Cert.ReferenceIdeal.Read.val_main_v16 (F := Ideal) X2 X5 X6 (ix2 r k)) :
    Cert.KernelIdeal.Gen.k0_pay5 (F := Ideal) x1 x2 x4 x5 (ix2 p z) = Cert.ReferenceIdeal.Read.val_main_v22 (F := Ideal) X0 X2 X3 X5 X6 (ix2 r z) := by
  unfold Cert.KernelIdeal.Gen.k0_pay5
  refine (lane_dot _ _ _ _ _ _ p z).trans ?_
  rw [Cert.ReferenceIdeal.Read.val_main_v22_apply, Cert.ReferenceIdeal.Read.val_main_v21_apply, Cert.ReferenceIdeal.Read.val_main_cst_2_apply]
  show _ = Ideal.ofBits .f32 0x00000000#32 + _
  rw [Ideal.ofBits_zero_f32, zero_add]
  refine Finset.sum_congr rfl fun k _ => ?_
  have hi : Cert.ReferenceIdeal.Read.idx_main_v21 (Cert.ReferenceIdeal.Read.idx_main_v22 (ix2 r z)) k = ix2 r k :=
    funext fun a => Fin.ext (by match a with | ⟨0, _⟩ => rfl | ⟨1, _⟩ => rfl)
  rw [hi, Cert.ReferenceIdeal.Read.val_main_v20_apply]
  show _ * _ = _ * _
  refine congrArg₂ (· * ·) ?_ (ha k)
  unfold Cert.KernelIdeal.Gen.k0_pay2
  rw [shapeCast_self]
  exact hq k

/-- ⟨s, a⟩: the block's column at row p is the reference's at row r. -/
theorem prod_sa_stage
    (x0 : Vec Ideal Cert.KernelIdeal.S1024x1024 .i32) (x3 : Vec Ideal Cert.KernelIdeal.S1024x65 .bf16) (x2 : Vec Ideal Cert.KernelIdeal.S1024x3 .f32)
    (x4 : Vec Ideal Cert.KernelIdeal.S3x64 .bf16) (x5 : Vec Ideal Cert.KernelIdeal.S1x64 .f32)
    (X1 : (⟨Cert.ReferenceIdeal.S16384x1024, .i32⟩ : BufTy).Contents (Elt Ideal))
    (X2 : (⟨Cert.ReferenceIdeal.S16384x3, .f32⟩ : BufTy).Contents (Elt Ideal))
    (X4 : (⟨Cert.ReferenceIdeal.S1024x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (p : Fin 1024) (r : Fin 16384) (z : Fin 1)
    (hs : ∀ k : Fin 64, Cert.KernelIdeal.Gen.k0_pay1 (F := Ideal) x0 x3 (ix2 p k) = Cert.ReferenceIdeal.Read.val_main_v5 (F := Ideal) X1 X4 (ix2 r k))
    (ha : ∀ k : Fin 64, Cert.KernelIdeal.Gen.k0_pay3 (F := Ideal) x2 x4 x5 (ix2 p k) = Cert.ReferenceIdeal.Read.val_main_v16 (F := Ideal) X2 X5 X6 (ix2 r k)) :
    Cert.KernelIdeal.Gen.k0_pay6 (F := Ideal) x0 x3 x2 x4 x5 (ix2 p z) = Cert.ReferenceIdeal.Read.val_main_v25 (F := Ideal) X1 X2 X4 X5 X6 (ix2 r z) := by
  unfold Cert.KernelIdeal.Gen.k0_pay6
  refine (lane_dot _ _ _ _ _ _ p z).trans ?_
  rw [Cert.ReferenceIdeal.Read.val_main_v25_apply, Cert.ReferenceIdeal.Read.val_main_v24_apply, Cert.ReferenceIdeal.Read.val_main_cst_3_apply]
  show _ = Ideal.ofBits .f32 0x00000000#32 + _
  rw [Ideal.ofBits_zero_f32, zero_add]
  refine Finset.sum_congr rfl fun k _ => ?_
  have hi : Cert.ReferenceIdeal.Read.idx_main_v24 (Cert.ReferenceIdeal.Read.idx_main_v25 (ix2 r z)) k = ix2 r k :=
    funext fun a => Fin.ext (by match a with | ⟨0, _⟩ => rfl | ⟨1, _⟩ => rfl)
  rw [hi, Cert.ReferenceIdeal.Read.val_main_v23_apply]
  show _ * _ = _ * _
  exact congrArg₂ (· * ·) (hs k) (ha k)

end Cert.Bridge

end
-- ==== Proof.SplitSum.lean ====
/-
  A sum over 195 positions, cut where a row of 195 features is joined from its parts: three runs of 64
  (positions 0–63, 64–127, 128–191) and three single positions (192, 193, 194).  In any commutative additive
  monoid the whole sum is the sum of the three runs plus the three single terms, associated to the left — the
  order in which a product against the joined row is accumulated part by part.
-/
import Mathlib.Algebra.BigOperators.Fin

namespace Cert.SplitSum

open scoped BigOperators

variable {M : Type*} [AddCommMonoid M]

/-- A sum over a + b positions is the sum over the first a plus the sum over the last b. -/
theorem sum_split (a b : Nat) (f : Fin (a + b) → M) :
    ∑ j, f j = (∑ k : Fin a, f ⟨k.val, by omega⟩) + ∑ k : Fin b, f ⟨a + k.val, by omega⟩ := by
  rw [Fin.sum_univ_add]
  rfl

/-- The sum over 195 positions as three runs of 64 and three single terms. -/
theorem sum_195 (f : Fin 195 → M) :
    ∑ j, f j =
      (∑ k : Fin 64, f ⟨k.val, by omega⟩) + (∑ k : Fin 64, f ⟨64 + k.val, by omega⟩)
        + (∑ k : Fin 64, f ⟨128 + k.val, by omega⟩) + f ⟨192, by omega⟩ + f ⟨193, by omega⟩ + f ⟨194, by omega⟩ := by
  have h1 := sum_split 64 131 f
  have h2 := sum_split 64 67 (fun k : Fin (64 + 67) => f ⟨64 + k.val, by omega⟩)
  have h3 := sum_split 64 3 (fun k : Fin (64 + 3) => f ⟨128 + k.val, by omega⟩)
  have h4 : ∑ k : Fin 3, f ⟨192 + k.val, by omega⟩ = f ⟨192, by omega⟩ + f ⟨193, by omega⟩ + f ⟨194, by omega⟩ := by
    rw [Fin.sum_univ_three]; rfl
  rw [h1]
  have e2 : (∑ k : Fin 131, f ⟨64 + k.val, by omega⟩)
      = (∑ k : Fin 64, f ⟨64 + k.val, by omega⟩) + ∑ k : Fin 67, f ⟨128 + k.val, by omega⟩ := by
    rw [h2]
    refine congrArg₂ (· + ·) rfl (Finset.sum_congr rfl fun k _ => congrArg f (Fin.ext ?_))
    show 64 + (64 + k.val) = 128 + k.val
    omega
  have e3 : (∑ k : Fin 67, f ⟨128 + k.val, by omega⟩)
      = (∑ k : Fin 64, f ⟨128 + k.val, by omega⟩) + ∑ k : Fin 3, f ⟨192 + k.val, by omega⟩ := by
    rw [h3]
    refine congrArg₂ (· + ·) rfl (Finset.sum_congr rfl fun k _ => congrArg f (Fin.ext ?_))
    show 128 + (64 + k.val) = 192 + k.val
    omega
  rw [e2, e3, h4]
  simp only [add_assoc]

end Cert.SplitSum
-- ==== Proof.RefFeatures.lean ====
/-
  The reference's joined feature row, read position by position.

  The reference joins, along axis 1, the question embedding (64 lanes), the mean skill embedding (64), the
  difficulty projection (64) and the three inner-product columns (1 each) into a row of 195 features.  A
  joined array read at a position is the piece whose span holds the position, read at the position less the
  extents before it: positions 0–63 read the first piece, 64–127 the second, 128–191 the third, and 192, 193,
  194 the three columns.
-/
import proofs.«123834_j38826504356124_2_alg».proof.Proof.Gen.KernelIdeal.Skeleton
import proofs.«123834_j38826504356124_2_alg».proof.Proof.Gen.ReferenceIdeal.Read

import Idealize.ShloMosaic.Lib.ValueIdx
import Idealize.ShloMosaic.Lib.Pipeline.Value

noncomputable section

namespace Cert.Bridge

open Idealize.ShloMosaic Idealize.ShloMosaic.ValueIdx Idealize.SL.Sem

variable (X0 : (⟨Cert.ReferenceIdeal.S16384, .i32⟩ : BufTy).Contents (Elt Ideal))
    (X1 : (⟨Cert.ReferenceIdeal.S16384x1024, .i32⟩ : BufTy).Contents (Elt Ideal))
    (X2 : (⟨Cert.ReferenceIdeal.S16384x3, .f32⟩ : BufTy).Contents (Elt Ideal))
    (X3 : (⟨Cert.ReferenceIdeal.S100000x64, .f32⟩ : BufTy).Contents (Elt Ideal))
    (X4 : (⟨Cert.ReferenceIdeal.S1024x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))

/-- Positions 0–63 of the joined row are the question embedding. -/
theorem feat_q (r : Fin 16384) (k : Fin 64) :
    Cert.ReferenceIdeal.Read.val_main_v26 (F := Ideal) X0 X1 X2 X3 X4 X5 X6 (ix2 r (⟨k.val, by omega⟩ : Fin 195))
      = Cert.ReferenceIdeal.Read.val_main_v12 (F := Ideal) X0 X3 (ix2 r k) := by
  unfold Cert.ReferenceIdeal.Read.val_main_v26
  refine concatenate_apply_piece (t := Cert.ReferenceIdeal.S16384x195) (1 : Fin 2) _ _ _ 0 ?_ Cert.ReferenceIdeal.S16384x64 (Cert.ReferenceIdeal.Read.val_main_v12 (F := Ideal) X0 X3) ?_ ?_ 0 ?_
    (ix2 r k) ?_ ?_
  · exact (by decide : (0 : Nat) < 6)
  · rfl
  · rfl
  · rfl
  · intro b hb
    match b with
    | ⟨0, _⟩ => rfl
    | ⟨1, _⟩ => exact absurd rfl hb
  · show 0 + k.val = k.val; omega

/-- Positions 64–127 are the mean skill embedding. -/
theorem feat_s (r : Fin 16384) (k : Fin 64) :
    Cert.ReferenceIdeal.Read.val_main_v26 (F := Ideal) X0 X1 X2 X3 X4 X5 X6 (ix2 r (⟨64 + k.val, by omega⟩ : Fin 195))
      = Cert.ReferenceIdeal.Read.val_main_v5 (F := Ideal) X1 X4 (ix2 r k) := by
  unfold Cert.ReferenceIdeal.Read.val_main_v26
  refine concatenate_apply_piece (t := Cert.ReferenceIdeal.S16384x195) (1 : Fin 2) _ _ _ 1 ?_ Cert.ReferenceIdeal.S16384x64 (Cert.ReferenceIdeal.Read.val_main_v5 (F := Ideal) X1 X4) ?_ ?_ 64 ?_
    (ix2 r k) ?_ ?_
  · exact (by decide : (1 : Nat) < 6)
  · rfl
  · rfl
  · rfl
  · intro b hb
    match b with
    | ⟨0, _⟩ => rfl
    | ⟨1, _⟩ => exact absurd rfl hb
  · rfl

/-- Positions 128–191 are the difficulty projection. -/
theorem feat_a (r : Fin 16384) (k : Fin 64) :
    Cert.ReferenceIdeal.Read.val_main_v26 (F := Ideal) X0 X1 X2 X3 X4 X5 X6 (ix2 r (⟨128 + k.val, by omega⟩ : Fin 195))
      = Cert.ReferenceIdeal.Read.val_main_v16 (F := Ideal) X2 X5 X6 (ix2 r k) := by
  unfold Cert.ReferenceIdeal.Read.val_main_v26
  refine concatenate_apply_piece (t := Cert.ReferenceIdeal.S16384x195) (1 : Fin 2) _ _ _ 2 ?_ Cert.ReferenceIdeal.S16384x64 (Cert.ReferenceIdeal.Read.val_main_v16 (F := Ideal) X2 X5 X6) ?_ ?_ 128 ?_
    (ix2 r k) ?_ ?_
  · exact (by decide : (2 : Nat) < 6)
  · rfl
  · rfl
  · rfl
  · intro b hb
    match b with
    | ⟨0, _⟩ => rfl
    | ⟨1, _⟩ => exact absurd rfl hb
  · rfl

/-- Position 192 is the inner product of the question and skill signals. -/
theorem feat_qs (r : Fin 16384) :
    Cert.ReferenceIdeal.Read.val_main_v26 (F := Ideal) X0 X1 X2 X3 X4 X5 X6 (ix2 r (⟨192, by omega⟩ : Fin 195))
      = Cert.ReferenceIdeal.Read.val_main_v19 (F := Ideal) X0 X1 X3 X4 (ix2 r (0 : Fin 1)) := by
  unfold Cert.ReferenceIdeal.Read.val_main_v26
  refine concatenate_apply_piece (t := Cert.ReferenceIdeal.S16384x195) (1 : Fin 2) _ _ _ 3 ?_ Cert.ReferenceIdeal.S16384x1 (Cert.ReferenceIdeal.Read.val_main_v19 (F := Ideal) X0 X1 X3 X4) ?_ ?_ 192 ?_
    (ix2 r (0 : Fin 1)) ?_ ?_
  · exact (by decide : (3 : Nat) < 6)
  · rfl
  · rfl
  · rfl
  · intro b hb
    match b with
    | ⟨0, _⟩ => rfl
    | ⟨1, _⟩ => exact absurd rfl hb
  · rfl

/-- Position 193 is the inner product of the question and difficulty signals. -/
theorem feat_qa (r : Fin 16384) :
    Cert.ReferenceIdeal.Read.val_main_v26 (F := Ideal) X0 X1 X2 X3 X4 X5 X6 (ix2 r (⟨193, by omega⟩ : Fin 195))
      = Cert.ReferenceIdeal.Read.val_main_v22 (F := Ideal) X0 X2 X3 X5 X6 (ix2 r (0 : Fin 1)) := by
  unfold Cert.ReferenceIdeal.Read.val_main_v26
  refine concatenate_apply_piece (t := Cert.ReferenceIdeal.S16384x195) (1 : Fin 2) _ _ _ 4 ?_ Cert.ReferenceIdeal.S16384x1 (Cert.ReferenceIdeal.Read.val_main_v22 (F := Ideal) X0 X2 X3 X5 X6) ?_ ?_ 193 ?_
    (ix2 r (0 : Fin 1)) ?_ ?_
  · exact (by decide : (4 : Nat) < 6)
  · rfl
  · rfl
  · rfl
  · intro b hb
    match b with
    | ⟨0, _⟩ => rfl
    | ⟨1, _⟩ => exact absurd rfl hb
  · rfl

/-- Position 194 is the inner product of the skill and difficulty signals. -/
theorem feat_sa (r : Fin 16384) :
    Cert.ReferenceIdeal.Read.val_main_v26 (F := Ideal) X0 X1 X2 X3 X4 X5 X6 (ix2 r (⟨194, by omega⟩ : Fin 195))
      = Cert.ReferenceIdeal.Read.val_main_v25 (F := Ideal) X1 X2 X4 X5 X6 (ix2 r (0 : Fin 1)) := by
  unfold Cert.ReferenceIdeal.Read.val_main_v26
  refine concatenate_apply_piece (t := Cert.ReferenceIdeal.S16384x195) (1 : Fin 2) _ _ _ 5 ?_ Cert.ReferenceIdeal.S16384x1 (Cert.ReferenceIdeal.Read.val_main_v25 (F := Ideal) X1 X2 X4 X5 X6) ?_ ?_ 194 ?_
    (ix2 r (0 : Fin 1)) ?_ ?_
  · exact (by decide : (5 : Nat) < 6)
  · rfl
  · rfl
  · rfl
  · intro b hb
    match b with
    | ⟨0, _⟩ => rfl
    | ⟨1, _⟩ => exact absurd rfl hb
  · rfl

end Cert.Bridge

end
-- ==== Proof.StageHidden.lean ====
/-
  The hidden layer, row by row.

  The reference takes ONE product of the joined row of 195 features with the 195 × 128 weight matrix, adds the
  bias and clamps below at zero.  The kernel never joins the row: it multiplies the three 64-lane signals by
  the three 64-row bands of the weight matrix (rows 0–63, 64–127, 128–191) on the matrix unit, each into a zero
  accumulator, multiplies each of the three inner products by its own weight row (192, 193, 194), and adds the
  six terms one after the other, then the bias, then clamps.  A sum over the 195 positions is the sum of the
  three runs of 64 and the three single terms in that order, in any commutative additive monoid — the
  extended reals included, infinities and all — so the two pre-activations are one extended real and so are
  their maxima with zero.  No distributivity, no cancellation and no finiteness are used.
-/
import proofs.«123834_j38826504356124_2_alg».proof.Proof.Gen.KernelIdeal.Skeleton
import proofs.«123834_j38826504356124_2_alg».proof.Proof.Gen.ReferenceIdeal.Read
import proofs.«123834_j38826504356124_2_alg».proof.Proof.LibPlainDot
import proofs.«123834_j38826504356124_2_alg».proof.Proof.LibRows
import proofs.«123834_j38826504356124_2_alg».proof.Proof.LibColumns
import proofs.«123834_j38826504356124_2_alg».proof.Proof.SplitSum
import proofs.«123834_j38826504356124_2_alg».proof.Proof.RefFeatures
import Idealize.ShloMosaic.Lib.ValueIdx
import Idealize.ShloMosaic.Lib.Pipeline.Value

noncomputable section

namespace Cert.Bridge

open Idealize.ShloMosaic Idealize.ShloMosaic.ValueIdx Idealize.SL.Sem

/-- Entry (p, h) of the block's hidden layer is entry (r, h) of the reference's, when on that row the first
    sub-product, the two other 64-lane signals and the three inner products agree with the reference's, and the
    weight bands, weight rows and bias are those of the reference's weight matrix and bias. -/
theorem hidden_stage
    (v22 v25 v28 : FVec Ideal Cert.KernelIdeal.S1024x1 .f32) (v30 v31 : FVec Ideal Cert.KernelIdeal.S1024x64 .bf16)
    (v34 : FVec Ideal Cert.KernelIdeal.S1024x128 .f32) (v36 : FVec Ideal Cert.KernelIdeal.S64x128 .bf16) (v39 : Vec Ideal Cert.KernelIdeal.S64x128 .bf16)
    (v43 v49 v55 v61 : Vec Ideal Cert.KernelIdeal.S1x128 .f32)
    (X0 : (⟨Cert.ReferenceIdeal.S16384, .i32⟩ : BufTy).Contents (Elt Ideal))
    (X1 : (⟨Cert.ReferenceIdeal.S16384x1024, .i32⟩ : BufTy).Contents (Elt Ideal))
    (X2 : (⟨Cert.ReferenceIdeal.S16384x3, .f32⟩ : BufTy).Contents (Elt Ideal))
    (X3 : (⟨Cert.ReferenceIdeal.S100000x64, .f32⟩ : BufTy).Contents (Elt Ideal))
    (X4 : (⟨Cert.ReferenceIdeal.S1024x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (X7 : (⟨Cert.ReferenceIdeal.S195x128, .f32⟩ : BufTy).Contents (Elt Ideal))
    (X8 : (⟨Cert.ReferenceIdeal.S128, .f32⟩ : BufTy).Contents (Elt Ideal))
    (p : Fin 1024) (r : Fin 16384) (h : Fin 128)
    (hq : (v34 (ix2 p h) : EReal)
        = ∑ k : Fin 64, Cert.ReferenceIdeal.Read.val_main_v12 (F := Ideal) X0 X3 (ix2 r k) * X7 (ix2 (⟨k.val, by omega⟩ : Fin 195) h))
    (hs : ∀ k : Fin 64, (v30 (ix2 p k) : EReal) = Cert.ReferenceIdeal.Read.val_main_v5 (F := Ideal) X1 X4 (ix2 r k))
    (ha : ∀ k : Fin 64, (v31 (ix2 p k) : EReal) = Cert.ReferenceIdeal.Read.val_main_v16 (F := Ideal) X2 X5 X6 (ix2 r k))
    (h36 : ∀ k : Fin 64, (v36 (ix2 k h) : EReal) = X7 (ix2 (⟨64 + k.val, by omega⟩ : Fin 195) h))
    (h39 : ∀ k : Fin 64, (v39 (ix2 k h) : EReal) = X7 (ix2 (⟨128 + k.val, by omega⟩ : Fin 195) h))
    (h43 : (v43 (ix2 0 h) : EReal) = X7 (ix2 (⟨192, by omega⟩ : Fin 195) h))
    (h49 : (v49 (ix2 0 h) : EReal) = X7 (ix2 (⟨193, by omega⟩ : Fin 195) h))
    (h55 : (v55 (ix2 0 h) : EReal) = X7 (ix2 (⟨194, by omega⟩ : Fin 195) h))
    (h61 : (v61 (ix2 0 h) : EReal) = X8 (ix1 h))
    (h22 : (v22 (ix2 p 0) : EReal) = Cert.ReferenceIdeal.Read.val_main_v19 (F := Ideal) X0 X1 X3 X4 (ix2 r (0 : Fin 1)))
    (h25 : (v25 (ix2 p 0) : EReal) = Cert.ReferenceIdeal.Read.val_main_v22 (F := Ideal) X0 X2 X3 X5 X6 (ix2 r (0 : Fin 1)))
    (h28 : (v28 (ix2 p 0) : EReal) = Cert.ReferenceIdeal.Read.val_main_v25 (F := Ideal) X1 X2 X4 X5 X6 (ix2 r (0 : Fin 1))) :
    Cert.KernelIdeal.Gen.k0_pay11 (F := Ideal) v22 v25 v28 v30 v31 v34 v36 v39 v43 v49 v55 v61 (ix2 p h)
      = Cert.ReferenceIdeal.Read.val_main_v31 (F := Ideal) X0 X1 X2 X3 X4 X5 X6 X7 X8 (ix2 r h) := by
  -- the two sub-products on the matrix unit, as sums over the 64 lanes
  have mm1 : (matmul Cert.KernelIdeal.dot_S1024x64_S64x128_S1024x128_1_0_0_1_n_n none v30 v36
        (constant (F := Ideal) Cert.KernelIdeal.S1024x128 .f32 0x00000000#32) : FVec Ideal Cert.KernelIdeal.S1024x128 .f32) (ix2 p h)
      = ∑ k : Fin 64, Cert.ReferenceIdeal.Read.val_main_v5 (F := Ideal) X1 X4 (ix2 r k) * X7 (ix2 (⟨64 + k.val, by omega⟩ : Fin 195) h) := by
    show matmul (DotDims.plain 1024 64 128) none v30 v36 (constant (F := Ideal) ⟨2, ![1024, 128]⟩ .f32 0x00000000#32) (ix2 p h) = _
    rw [Cert.Lib.PlainDot.matmul_plain_zero_apply]
    exact Finset.sum_congr rfl fun k _ => congrArg₂ (fun a b : EReal => a * b) (hs k) (h36 k)
  have mm2 : (matmul Cert.KernelIdeal.dot_S1024x64_S64x128_S1024x128_1_0_0_1_n_n none v31
        (shapeCast Cert.KernelIdeal.S64x128 v39 Cert.KernelIdeal.Gen.shapeCasts_S64x128_S64x128 : FVec Ideal Cert.KernelIdeal.S64x128 .bf16)
        (constant (F := Ideal) Cert.KernelIdeal.S1024x128 .f32 0x00000000#32) : FVec Ideal Cert.KernelIdeal.S1024x128 .f32) (ix2 p h)
      = ∑ k : Fin 64, Cert.ReferenceIdeal.Read.val_main_v16 (F := Ideal) X2 X5 X6 (ix2 r k) * X7 (ix2 (⟨128 + k.val, by omega⟩ : Fin 195) h) := by
    show matmul (DotDims.plain 1024 64 128) none v31 _ (constant (F := Ideal) ⟨2, ![1024, 128]⟩ .f32 0x00000000#32) (ix2 p h) = _
    rw [Cert.Lib.PlainDot.matmul_plain_zero_apply]
    refine Finset.sum_congr rfl fun k _ => congrArg₂ (fun a b : EReal => a * b) (ha k) ?_
    rw [shapeCast_self]
    exact h39 k
  -- a [1024, 1] column times a [1, 128] row, spread to [1024, 128], at (p, h)
  have col : ∀ (c : FVec Ideal Cert.KernelIdeal.S1024x1 .f32) (w : Vec Ideal Cert.KernelIdeal.S1x128 .f32),
      (mulf (broadcastTo Cert.KernelIdeal.S1024x128 c Cert.KernelIdeal.Gen.broadcasts_S1024x1_S1024x128)
          (broadcastTo Cert.KernelIdeal.S1024x128 (shapeCast Cert.KernelIdeal.S1x128 w Cert.KernelIdeal.Gen.shapeCasts_S1x128_S1x128) Cert.KernelIdeal.Gen.broadcasts_S1x128_S1024x128)
        : FVec Ideal Cert.KernelIdeal.S1024x128 .f32) (ix2 p h) = (c (ix2 p 0) : EReal) * w (ix2 0 h) := fun c w => by
    show (_ : EReal) * _ = _
    rw [Cert.Columns.broadcastTo_a1_ab_apply c _ p h 0, Cert.Lib.Rows.broadcastTo_row_apply, shapeCast_self]
  have row : ∀ (w : Vec Ideal Cert.KernelIdeal.S1x128 .f32),
      (broadcastTo Cert.KernelIdeal.S1024x128 (shapeCast Cert.KernelIdeal.S1x128 w Cert.KernelIdeal.Gen.shapeCasts_S1x128_S1x128) Cert.KernelIdeal.Gen.broadcasts_S1x128_S1024x128
        : FVec Ideal Cert.KernelIdeal.S1024x128 .f32) (ix2 p h) = (w (ix2 0 h) : EReal) := fun w => by
    rw [Cert.Lib.Rows.broadcastTo_row_apply, shapeCast_self]
  unfold Cert.KernelIdeal.Gen.k0_pay11
  rw [Cert.ReferenceIdeal.Read.val_main_v31_apply]
  show max _ _ = max _ _
  refine congrArg₂ max ?_ ?_
  · -- the pre-activation
    show ((((((_ + _) + _) + _) + _) + _) + _ : EReal) = _
    rw [mm1, mm2, col v22 v43, col v25 v49, col v28 v55, row v61, hq, h22, h25, h28, h43, h49, h55, h61,
      Cert.ReferenceIdeal.Read.val_main_v30_apply, Cert.ReferenceIdeal.Read.val_main_v27_apply, Cert.ReferenceIdeal.Read.val_main_v29_apply, Cert.ReferenceIdeal.Read.val_main_v28_apply]
    show _ = (_ + _ : EReal)
    rw [Cert.SplitSum.sum_195]
    have eL : ∀ j : Fin 195, Cert.ReferenceIdeal.Read.lidx_main_v27 (ix2 r h) j = ix2 r j := fun j =>
      funext fun a => Fin.ext (by match a with | ⟨0, _⟩ => rfl | ⟨1, _⟩ => rfl)
    have eR : ∀ j : Fin 195, Cert.ReferenceIdeal.Read.ridx_main_v27 (ix2 r h) j = ix2 j h := fun j =>
      funext fun a => Fin.ext (by match a with | ⟨0, _⟩ => rfl | ⟨1, _⟩ => rfl)
    simp only [eL, eR, feat_q, feat_s, feat_a, feat_qs, feat_qa, feat_sa]
    refine congrArg₂ (· + ·) rfl ?_
    exact congrArg X8 (funext fun a => Fin.ext (by match a with | ⟨0, _⟩ => rfl))
  · -- the clamp's zero
    rw [Cert.ReferenceIdeal.Read.val_main_call0_v0_apply, Cert.ReferenceIdeal.Read.val_main_call0_cst_apply]
    rfl

end Cert.Bridge

end
-- ==== Proof.StageOut.lean ====
/-
  The output unit, row by row.

  Both programs multiply the hidden layer (128 lanes) by the 128 × 1 output weights, add the output bias and
  apply the logistic function.  The kernel does the product on the matrix unit into a zero accumulator and
  applies the logistic function as one operation; the reference spells it 1 / (1 + exp (−x)) with the host's
  negation, exponential, sum and quotient, the two ones being the single-precision word of 1.0.  At the ideal
  values the one operation is DEFINED as that expression of the same exponential and the same quotient, so the
  identity holds on every extended real, the infinities included, with nothing to check case by case; once the
  two hidden layers agree on the row the two outputs do.
-/
import proofs.«123834_j38826504356124_2_alg».proof.Proof.Gen.KernelIdeal.Skeleton
import proofs.«123834_j38826504356124_2_alg».proof.Proof.Gen.ReferenceIdeal.Read
import proofs.«123834_j38826504356124_2_alg».proof.Proof.LibDotBlocks
import proofs.«123834_j38826504356124_2_alg».proof.Proof.LibRows
import proofs.«123834_j38826504356124_2_alg».proof.Proof.Words
import Idealize.ShloMosaic.Lib.ValueIdx
import Idealize.ShloMosaic.Lib.Pipeline.Value

noncomputable section

namespace Cert.Bridge

open Idealize.ShloMosaic Idealize.ShloMosaic.ValueIdx Idealize.SL.Sem

/-- The logistic function at the ideal values is the reference's quotient, with both ones spelt as the
    single-precision word of 1.0. -/
theorem logistic_eq_quotient (x : EReal) :
    Ideal.logistic x
      = Ideal.div (Ideal.ofBits .f32 0x3F800000#32) (Ideal.ofBits .f32 0x3F800000#32 + Ideal.exp (-x)) := by
  rw [Cert.Words.ofBits_one_f32]
  rfl

/-- Entry (p, 0) of the block's output column is entry (r, 0) of the reference's, when the block's hidden layer
    agrees with the reference's on that row and the output weights and bias are the reference's. -/
theorem out_stage
    (v22 v25 v28 : FVec Ideal Cert.KernelIdeal.S1024x1 .f32) (v30 v31 : FVec Ideal Cert.KernelIdeal.S1024x64 .bf16)
    (v34 : FVec Ideal Cert.KernelIdeal.S1024x128 .f32) (v36 : FVec Ideal Cert.KernelIdeal.S64x128 .bf16) (v39 : Vec Ideal Cert.KernelIdeal.S64x128 .bf16)
    (v43 v49 v55 v61 : Vec Ideal Cert.KernelIdeal.S1x128 .f32) (v68 : Vec Ideal Cert.KernelIdeal.S128x1 .bf16) (v71 : Vec Ideal Cert.KernelIdeal.S1x1 .f32)
    (X0 : (⟨Cert.ReferenceIdeal.S16384, .i32⟩ : BufTy).Contents (Elt Ideal))
    (X1 : (⟨Cert.ReferenceIdeal.S16384x1024, .i32⟩ : BufTy).Contents (Elt Ideal))
    (X2 : (⟨Cert.ReferenceIdeal.S16384x3, .f32⟩ : BufTy).Contents (Elt Ideal))
    (X3 : (⟨Cert.ReferenceIdeal.S100000x64, .f32⟩ : BufTy).Contents (Elt Ideal))
    (X4 : (⟨Cert.ReferenceIdeal.S1024x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (X7 : (⟨Cert.ReferenceIdeal.S195x128, .f32⟩ : BufTy).Contents (Elt Ideal))
    (X8 : (⟨Cert.ReferenceIdeal.S128, .f32⟩ : BufTy).Contents (Elt Ideal))
    (X9 : (⟨Cert.ReferenceIdeal.S128x1, .f32⟩ : BufTy).Contents (Elt Ideal))
    (X10 : (⟨Cert.ReferenceIdeal.S1, .f32⟩ : BufTy).Contents (Elt Ideal))
    (p : Fin 1024) (r : Fin 16384) (z : Fin 1)
    (he : ∀ h : Fin 128, Cert.KernelIdeal.Gen.k0_pay11 (F := Ideal) v22 v25 v28 v30 v31 v34 v36 v39 v43 v49 v55 v61 (ix2 p h)
        = Cert.ReferenceIdeal.Read.val_main_v31 (F := Ideal) X0 X1 X2 X3 X4 X5 X6 X7 X8 (ix2 r h))
    (h68 : ∀ h : Fin 128, (v68 (ix2 h z) : EReal) = X9 (ix2 h z))
    (h71 : (v71 (ix2 0 z) : EReal) = X10 (ix1 (0 : Fin 1))) :
    Cert.KernelIdeal.Gen.k0_pay12 (F := Ideal) v22 v25 v28 v30 v31 v34 v36 v39 v43 v49 v55 v61 v68 v71 (ix2 p z)
      = Cert.ReferenceIdeal.Read.val_main_v41 (F := Ideal) X0 X1 X2 X3 X4 X5 X6 X7 X8 X9 X10 (ix2 r z) := by
  unfold Cert.KernelIdeal.Gen.k0_pay12
  rw [Cert.ReferenceIdeal.Read.val_main_v41_apply, Cert.ReferenceIdeal.Read.val_main_v40_apply, Cert.ReferenceIdeal.Read.val_main_cst_5_apply, Cert.ReferenceIdeal.Read.val_main_v39_apply,
    Cert.ReferenceIdeal.Read.val_main_v38_apply, Cert.ReferenceIdeal.Read.val_main_cst_4_apply, Cert.ReferenceIdeal.Read.val_main_v37_apply, Cert.ReferenceIdeal.Read.val_main_v36_apply,
    Cert.ReferenceIdeal.Read.val_main_v35_apply]
  show Ideal.logistic (_ + _) = Ideal.div (Ideal.ofBits .f32 0x3F800000#32) (Ideal.ofBits .f32 0x3F800000#32 + Ideal.exp (-(_ + _)))
  rw [logistic_eq_quotient]
  have hmm : (matmul Cert.KernelIdeal.dot_S1024x128_S128x1_S1024x1_1_0_0_1_n_n none
        (truncf .bf16 (Cert.KernelIdeal.Gen.k0_pay11 (F := Ideal) v22 v25 v28 v30 v31 v34 v36 v39 v43 v49 v55 v61) Cert.KernelIdeal.Gen.bitsLt_bf16_f32)
        (shapeCast Cert.KernelIdeal.S128x1 v68 Cert.KernelIdeal.Gen.shapeCasts_S128x1_S128x1 : FVec Ideal Cert.KernelIdeal.S128x1 .bf16)
        (constant (F := Ideal) Cert.KernelIdeal.S1024x1 .f32 0x00000000#32) : FVec Ideal Cert.KernelIdeal.S1024x1 .f32) (ix2 p z)
      = Cert.ReferenceIdeal.Read.val_main_v32 (F := Ideal) X0 X1 X2 X3 X4 X5 X6 X7 X8 X9 (ix2 r z) := by
    unfold Cert.ReferenceIdeal.Read.val_main_v32
    refine Cert.Lib.DotBlocks.matmul_block_eq_dotGeneral (M := 16384) (K := 128) (N := 1) none none
      (Cert.ReferenceIdeal.Read.val_main_v31 (F := Ideal) X0 X1 X2 X3 X4 X5 X6 X7 X8) X9 _ _ p z r z (fun h => he h) (fun h => ?_)
    rw [shapeCast_self]
    exact h68 h
  have hb : (broadcastTo Cert.KernelIdeal.S1024x1 (shapeCast Cert.KernelIdeal.S1x1 v71 Cert.KernelIdeal.Gen.shapeCasts_S1x1_S1x1) Cert.KernelIdeal.Gen.broadcasts_S1x1_S1024x1
        : FVec Ideal Cert.KernelIdeal.S1024x1 .f32) (ix2 p z)
      = Cert.ReferenceIdeal.Read.val_main_v34 (F := Ideal) X10 (ix2 r z) := by
    rw [Cert.Lib.Rows.broadcastTo_row_apply, shapeCast_self, h71, Cert.ReferenceIdeal.Read.val_main_v34_apply, Cert.ReferenceIdeal.Read.val_main_v33_apply]
    exact congrArg X10 (funext fun a => Fin.ext (by match a with | ⟨0, _⟩ => rfl))
  rw [hmm, hb]

end Cert.Bridge

end
-- ==== Proof.PointFacts.lean ====
/-
  One row of one block against the same row of the whole arrays.

  The kernel's body, as one pure term of the fifteen input blocks, is read here at a row p of the block; the
  reference's stages are read at the row r of the whole arrays that p is.  The hypotheses say, entry by entry,
  what the blocks hold: row p of the three row-blocked inputs (targets, gathered question embeddings,
  difficulty features) is row r of the whole arrays, and the twelve resident blocks are the weights as the host
  laid them out (the skill embeddings with a column of ones appended, the three 64-row bands and the three
  single rows of the hidden layer's weight matrix, the biases as rows).  The stages then follow one another as
  in the kernel: mean skill embedding and difficulty projection; the three inner products; the hidden layer;
  the output unit.  Each step is the stage lemma of its own module; nothing else is used here.
-/
import proofs.«123834_j38826504356124_2_alg».proof.Proof.Gen.KernelIdeal.Skeleton
import proofs.«123834_j38826504356124_2_alg».proof.Proof.Gen.ReferenceIdeal.Read
import proofs.«123834_j38826504356124_2_alg».proof.Proof.LibPlainDot
import proofs.«123834_j38826504356124_2_alg».proof.Proof.StageSkill
import proofs.«123834_j38826504356124_2_alg».proof.Proof.StageDiff
import proofs.«123834_j38826504356124_2_alg».proof.Proof.StageProducts
import proofs.«123834_j38826504356124_2_alg».proof.Proof.StageHidden
import proofs.«123834_j38826504356124_2_alg».proof.Proof.StageOut
import Idealize.ShloMosaic.Lib.ValueIdx
import Idealize.ShloMosaic.Lib.Pipeline.Value

noncomputable section

namespace Cert.Bridge

open Idealize.ShloMosaic Idealize.ShloMosaic.ValueIdx Idealize.SL.Sem

/-- The hidden layer of the block at (p, h) is the reference's at (r, h). -/
theorem point_hidden
    (x0 : Vec Ideal Cert.KernelIdeal.S1024x1024 .i32) (x1 : Vec Ideal Cert.KernelIdeal.S1024x64 .f32) (x2 : Vec Ideal Cert.KernelIdeal.S1024x3 .f32)
    (x3 : Vec Ideal Cert.KernelIdeal.S1024x65 .bf16) (x4 : Vec Ideal Cert.KernelIdeal.S3x64 .bf16) (x5 : Vec Ideal Cert.KernelIdeal.S1x64 .f32)
    (x6 x7 x8 : Vec Ideal Cert.KernelIdeal.S64x128 .bf16) (x9 x10 x11 x12 : Vec Ideal Cert.KernelIdeal.S1x128 .f32)
    (X0 : (⟨Cert.ReferenceIdeal.S16384, .i32⟩ : BufTy).Contents (Elt Ideal))
    (X1 : (⟨Cert.ReferenceIdeal.S16384x1024, .i32⟩ : BufTy).Contents (Elt Ideal))
    (X2 : (⟨Cert.ReferenceIdeal.S16384x3, .f32⟩ : BufTy).Contents (Elt Ideal))
    (X3 : (⟨Cert.ReferenceIdeal.S100000x64, .f32⟩ : BufTy).Contents (Elt Ideal))
    (X4 : (⟨Cert.ReferenceIdeal.S1024x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (X7 : (⟨Cert.ReferenceIdeal.S195x128, .f32⟩ : BufTy).Contents (Elt Ideal))
    (X8 : (⟨Cert.ReferenceIdeal.S128, .f32⟩ : BufTy).Contents (Elt Ideal))
    (p : Fin 1024) (r : Fin 16384) (h : Fin 128)
    (h0 : ∀ j : Fin 1024, x0 (ix2 p j) = X1 (ix2 r j))
    (h1 : ∀ k : Fin 64, (x1 (ix2 p k) : EReal) = Cert.ReferenceIdeal.Read.val_main_v12 (F := Ideal) X0 X3 (ix2 r k))
    (h2 : ∀ j : Fin 3, (x2 (ix2 p j) : EReal) = X2 (ix2 r j))
    (h3 : ∀ (j : Fin 1024) (k : Fin 64), (x3 (ix2 j (⟨k.val, by omega⟩ : Fin 65)) : EReal) = X4 (ix2 j k))
    (h3one : ∀ j : Fin 1024, (x3 (ix2 j (⟨64, by omega⟩ : Fin 65)) : EReal) = 1)
    (h4 : ∀ (j : Fin 3) (k : Fin 64), (x4 (ix2 j k) : EReal) = X5 (ix2 j k))
    (h5 : ∀ k : Fin 64, (x5 (ix2 0 k) : EReal) = X6 (ix1 k))
    (h6 : ∀ (k : Fin 64) (h : Fin 128), (x6 (ix2 k h) : EReal) = X7 (ix2 (⟨k.val, by omega⟩ : Fin 195) h))
    (h7 : ∀ (k : Fin 64) (h : Fin 128), (x7 (ix2 k h) : EReal) = X7 (ix2 (⟨64 + k.val, by omega⟩ : Fin 195) h))
    (h8 : ∀ (k : Fin 64) (h : Fin 128), (x8 (ix2 k h) : EReal) = X7 (ix2 (⟨128 + k.val, by omega⟩ : Fin 195) h))
    (h9 : ∀ h : Fin 128, (x9 (ix2 0 h) : EReal) = X7 (ix2 (⟨192, by omega⟩ : Fin 195) h))
    (h10 : ∀ h : Fin 128, (x10 (ix2 0 h) : EReal) = X7 (ix2 (⟨193, by omega⟩ : Fin 195) h))
    (h11 : ∀ h : Fin 128, (x11 (ix2 0 h) : EReal) = X7 (ix2 (⟨194, by omega⟩ : Fin 195) h))
    (h12 : ∀ h : Fin 128, (x12 (ix2 0 h) : EReal) = X8 (ix1 h)) :
    Cert.KernelIdeal.Gen.k0_pay11 (F := Ideal) (Cert.KernelIdeal.Gen.k0_pay4 x0 x3 x1) (Cert.KernelIdeal.Gen.k0_pay5 x1 x2 x4 x5) (Cert.KernelIdeal.Gen.k0_pay6 x0 x3 x2 x4 x5)
        (Cert.KernelIdeal.Gen.k0_pay7 x0 x3) (Cert.KernelIdeal.Gen.k0_pay8 x2 x4 x5) (Cert.KernelIdeal.Gen.k0_pay9 x1 x6) (Cert.KernelIdeal.Gen.k0_pay10 x7) x8 x9 x10 x11 x12 (ix2 p h)
      = Cert.ReferenceIdeal.Read.val_main_v31 (F := Ideal) X0 X1 X2 X3 X4 X5 X6 X7 X8 (ix2 r h) := by
  have hs : ∀ k : Fin 64, Cert.KernelIdeal.Gen.k0_pay1 (F := Ideal) x0 x3 (ix2 p k) = Cert.ReferenceIdeal.Read.val_main_v5 (F := Ideal) X1 X4 (ix2 r k) :=
    fun k => skill_stage x0 x3 X1 X4 p r k h0 (fun j => h3 j k) h3one
  have ha : ∀ k : Fin 64, Cert.KernelIdeal.Gen.k0_pay3 (F := Ideal) x2 x4 x5 (ix2 p k) = Cert.ReferenceIdeal.Read.val_main_v16 (F := Ideal) X2 X5 X6 (ix2 r k) :=
    fun k => diff_stage x2 x4 x5 X2 X5 X6 p r k h2 (fun j => h4 j k) (h5 k)
  refine hidden_stage _ _ _ _ _ _ _ x8 x9 x10 x11 x12 X0 X1 X2 X3 X4 X5 X6 X7 X8 p r h ?_ (fun k => hs k) (fun k => ha k)
    (fun k => ?_) (fun k => h8 k h) (h9 h) (h10 h) (h11 h) (h12 h)
    (prod_qs_stage x0 x3 x1 X0 X1 X3 X4 p r 0 h1 hs) (prod_qa_stage x1 x2 x4 x5 X0 X2 X3 X5 X6 p r 0 h1 ha)
    (prod_sa_stage x0 x3 x2 x4 x5 X1 X2 X4 X5 X6 p r 0 hs ha)
  · -- the question embedding times the first band of the weights
    unfold Cert.KernelIdeal.Gen.k0_pay9 Cert.KernelIdeal.Gen.k0_pay2
    show matmul (DotDims.plain 1024 64 128) none _ _ (constant (F := Ideal) ⟨2, ![1024, 128]⟩ .f32 0x00000000#32) (ix2 p h) = _
    rw [Cert.Lib.PlainDot.matmul_plain_zero_apply]
    refine Finset.sum_congr rfl fun k _ => ?_
    rw [shapeCast_self, shapeCast_self]
    exact congrArg₂ (fun a b : EReal => a * b) (h1 k) (h6 k h)
  · unfold Cert.KernelIdeal.Gen.k0_pay10
    rw [shapeCast_self]
    exact h7 k h

/-- The output unit of the block at (p, 0) is the reference's at (r, 0). -/
theorem point_out
    (x0 : Vec Ideal Cert.KernelIdeal.S1024x1024 .i32) (x1 : Vec Ideal Cert.KernelIdeal.S1024x64 .f32) (x2 : Vec Ideal Cert.KernelIdeal.S1024x3 .f32)
    (x3 : Vec Ideal Cert.KernelIdeal.S1024x65 .bf16) (x4 : Vec Ideal Cert.KernelIdeal.S3x64 .bf16) (x5 : Vec Ideal Cert.KernelIdeal.S1x64 .f32)
    (x6 x7 x8 : Vec Ideal Cert.KernelIdeal.S64x128 .bf16) (x9 x10 x11 x12 : Vec Ideal Cert.KernelIdeal.S1x128 .f32) (x13 : Vec Ideal Cert.KernelIdeal.S128x1 .bf16) (x14 : Vec Ideal Cert.KernelIdeal.S1x1 .f32)
    (X0 : (⟨Cert.ReferenceIdeal.S16384, .i32⟩ : BufTy).Contents (Elt Ideal))
    (X1 : (⟨Cert.ReferenceIdeal.S16384x1024, .i32⟩ : BufTy).Contents (Elt Ideal))
    (X2 : (⟨Cert.ReferenceIdeal.S16384x3, .f32⟩ : BufTy).Contents (Elt Ideal))
    (X3 : (⟨Cert.ReferenceIdeal.S100000x64, .f32⟩ : BufTy).Contents (Elt Ideal))
    (X4 : (⟨Cert.ReferenceIdeal.S1024x64, .f32⟩ : BufTy).Contents (Elt Ideal))
    (X5 : (⟨Cert.ReferenceIdeal.S3x64, .f32⟩ : BufTy).Contents (Elt Ideal))
    (X6 : (⟨Cert.ReferenceIdeal.S64, .f32⟩ : BufTy).Contents (Elt Ideal))
    (X7 : (⟨Cert.ReferenceIdeal.S195x128, .f32⟩ : BufTy).Contents (Elt Ideal))
    (X8 : (⟨Cert.ReferenceIdeal.S128, .f32⟩ : BufTy).Contents (Elt Ideal))
    (X9 : (⟨Cert.ReferenceIdeal.S128x1, .f32⟩ : BufTy).Contents (Elt Ideal))
    (X10 : (⟨Cert.ReferenceIdeal.S1, .f32⟩ : BufTy).Contents (Elt Ideal))
    (p : Fin 1024) (r : Fin 16384) (z : Fin 1)
    (h0 : ∀ j : Fin 1024, x0 (ix2 p j) = X1 (ix2 r j))
    (h1 : ∀ k : Fin 64, (x1 (ix2 p k) : EReal) = Cert.ReferenceIdeal.Read.val_main_v12 (F := Ideal) X0 X3 (ix2 r k))
    (h2 : ∀ j : Fin 3, (x2 (ix2 p j) : EReal) = X2 (ix2 r j))
    (h3 : ∀ (j : Fin 1024) (k : Fin 64), (x3 (ix2 j (⟨k.val, by omega⟩ : Fin 65)) : EReal) = X4 (ix2 j k))
    (h3one : ∀ j : Fin 1024, (x3 (ix2 j (⟨64, by omega⟩ : Fin 65)) : EReal) = 1)
    (h4 : ∀ (j : Fin 3) (k : Fin 64), (x4 (ix2 j k) : EReal) = X5 (ix2 j k))
    (h5 : ∀ k : Fin 64, (x5 (ix2 0 k) : EReal) = X6 (ix1 k))
    (h6 : ∀ (k : Fin 64) (h : Fin 128), (x6 (ix2 k h) : EReal) = X7 (ix2 (⟨k.val, by omega⟩ : Fin 195) h))
    (h7 : ∀ (k : Fin 64) (h : Fin 128), (x7 (ix2 k h) : EReal) = X7 (ix2 (⟨64 + k.val, by omega⟩ : Fin 195) h))
    (h8 : ∀ (k : Fin 64) (h : Fin 128), (x8 (ix2 k h) : EReal) = X7 (ix2 (⟨128 + k.val, by omega⟩ : Fin 195) h))
    (h9 : ∀ h : Fin 128, (x9 (ix2 0 h) : EReal) = X7 (ix2 (⟨192, by omega⟩ : Fin 195) h))
    (h10 : ∀ h : Fin 128, (x10 (ix2 0 h) : EReal) = X7 (ix2 (⟨193, by omega⟩ : Fin 195) h))
    (h11 : ∀ h : Fin 128, (x11 (ix2 0 h) : EReal) = X7 (ix2 (⟨194, by omega⟩ : Fin 195) h))
    (h12 : ∀ h : Fin 128, (x12 (ix2 0 h) : EReal) = X8 (ix1 h))
    (h13 : ∀ h : Fin 128, (x13 (ix2 h z) : EReal) = X9 (ix2 h z))
    (h14 : (x14 (ix2 0 z) : EReal) = X10 (ix1 (0 : Fin 1))) :
    Cert.KernelIdeal.Gen.k0_pay12 (F := Ideal) (Cert.KernelIdeal.Gen.k0_pay4 x0 x3 x1) (Cert.KernelIdeal.Gen.k0_pay5 x1 x2 x4 x5) (Cert.KernelIdeal.Gen.k0_pay6 x0 x3 x2 x4 x5)
        (Cert.KernelIdeal.Gen.k0_pay7 x0 x3) (Cert.KernelIdeal.Gen.k0_pay8 x2 x4 x5) (Cert.KernelIdeal.Gen.k0_pay9 x1 x6) (Cert.KernelIdeal.Gen.k0_pay10 x7) x8 x9 x10 x11 x12 x13 x14 (ix2 p z)
      = Cert.ReferenceIdeal.Read.val_main_v41 (F := Ideal) X0 X1 X2 X3 X4 X5 X6 X7 X8 X9 X10 (ix2 r z) :=
  out_stage _ _ _ _ _ _ _ x8 x9 x10 x11 x12 x13 x14 X0 X1 X2 X3 X4 X5 X6 X7 X8 X9 X10 p r z
    (fun h => point_hidden x0 x1 x2 x3 x4 x5 x6 x7 x8 x9 x10 x11 x12 X0 X1 X2 X3 X4 X5 X6 X7 X8 p r h
      h0 h1 h2 h3 h3one h4 h5 h6 h7 h8 h9 h10 h11 h12)
    h13 h14

end Cert.Bridge

end
-- ==== Proof.KernelValue.lean ====
/-
  What the idealized kernel's run leaves in its two results.

  Every block of 1024 rows of the hidden layer that a grid point writes back is, entry by entry, the
  reference's hidden layer at the rows the block covers, and likewise the column of outputs; the sixteen blocks
  tile the 16384 rows.  So after the run the first result is the reference's hidden layer as one whole-array
  function of the argument arrays, and the second — the output column with its unit axis dropped by the
  host's last reshape — is the reference's output column reshaped the same way.
-/
import proofs.«123834_j38826504356124_2_alg».proof.Proof.KernelRun
import proofs.«123834_j38826504356124_2_alg».proof.Proof.Operands
import proofs.«123834_j38826504356124_2_alg».proof.Proof.PointFacts

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Plumb Cert.KernelIdeal.Operands

variable (m : (ℓ : Loc nD τ sig) → Buf (Elt Ideal) ℓ) (ρ : Dev nD → PrngReg)

/-- The hidden layer as the reference computes it, of the kernel's own argument arrays. -/
def hidden (c : Dev nD) : Vec Ideal S16384x128 .f32 :=
  Cert.ReferenceIdeal.Read.val_main_v31 (F := Ideal) (m ((c : Thread nD τ).loc main_arg0) : Vec Ideal S16384 .i32)
    (m ((c : Thread nD τ).loc main_arg1) : Vec Ideal S16384x1024 .i32)
    (m ((c : Thread nD τ).loc main_arg2) : Vec Ideal S16384x3 .f32)
    (m ((c : Thread nD τ).loc main_arg3) : Vec Ideal S100000x64 .f32)
    (m ((c : Thread nD τ).loc main_arg4) : Vec Ideal S1024x64 .f32)
    (m ((c : Thread nD τ).loc main_arg5) : Vec Ideal S3x64 .f32)
    (m ((c : Thread nD τ).loc main_arg6) : Vec Ideal S64 .f32)
    (m ((c : Thread nD τ).loc main_arg7) : Vec Ideal S195x128 .f32)
    (m ((c : Thread nD τ).loc main_arg8) : Vec Ideal S128 .f32)

/-- The output column as the reference computes it, of the kernel's own argument arrays. -/
def outCol (c : Dev nD) : Vec Ideal S16384x1 .f32 :=
  Cert.ReferenceIdeal.Read.val_main_v41 (F := Ideal) (m ((c : Thread nD τ).loc main_arg0) : Vec Ideal S16384 .i32)
    (m ((c : Thread nD τ).loc main_arg1) : Vec Ideal S16384x1024 .i32)
    (m ((c : Thread nD τ).loc main_arg2) : Vec Ideal S16384x3 .f32)
    (m ((c : Thread nD τ).loc main_arg3) : Vec Ideal S100000x64 .f32)
    (m ((c : Thread nD τ).loc main_arg4) : Vec Ideal S1024x64 .f32)
    (m ((c : Thread nD τ).loc main_arg5) : Vec Ideal S3x64 .f32)
    (m ((c : Thread nD τ).loc main_arg6) : Vec Ideal S64 .f32)
    (m ((c : Thread nD τ).loc main_arg7) : Vec Ideal S195x128 .f32)
    (m ((c : Thread nD τ).loc main_arg8) : Vec Ideal S128 .f32)
    (m ((c : Thread nD τ).loc main_arg9) : Vec Ideal S128x1 .f32)
    (m ((c : Thread nD τ).loc main_arg10) : Vec Ideal S1 .f32)

/-- The second result: the output column with its unit axis dropped, a vector of 16384 outputs. -/
def outVec (c : Dev nD) : Vec Ideal S16384 .f32 :=
  shapeCast S16384 (outCol m c) shapeCasts_S16384x1_S16384

/-- What grid point t leaves in the first result's block, at (p, h): the reference's hidden layer at row
    1024·t + p. -/
theorem hidden_at (c : Dev nD) (t : Fin cfg0.N) (p : Fin 1024) (h : Fin 128) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p h) = hidden m c (ix2 (rowAt t p) h) := by
  refine (congrFun (out0_15_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 p h)).trans ?_
  exact Cert.Bridge.point_hidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (m ((c : Thread nD τ).loc main_arg0) : Vec Ideal S16384 .i32)
      (m ((c : Thread nD τ).loc main_arg1) : Vec Ideal S16384x1024 .i32)
      (m ((c : Thread nD τ).loc main_arg2) : Vec Ideal S16384x3 .f32)
      (m ((c : Thread nD τ).loc main_arg3) : Vec Ideal S100000x64 .f32)
      (m ((c : Thread nD τ).loc main_arg4) : Vec Ideal S1024x64 .f32)
      (m ((c : Thread nD τ).loc main_arg5) : Vec Ideal S3x64 .f32)
      (m ((c : Thread nD τ).loc main_arg6) : Vec Ideal S64 .f32)
      (m ((c : Thread nD τ).loc main_arg7) : Vec Ideal S195x128 .f32)
      (m ((c : Thread nD τ).loc main_arg8) : Vec Ideal S128 .f32)
      p (rowAt t p) h
      (targets_row m c t p) (question_row m c t p) (features_row m c t p) (skills_col m c t) (skills_ones m c t)
      (diffw_entry m c t) (diffb_entry m c t) (band0_entry m c t) (band1_entry m c t) (band2_entry m c t)
      (wrow192_entry m c t) (wrow193_entry m c t) (wrow194_entry m c t) (hidb_entry m c t)

/-- What grid point t leaves in the second result's block, at (p, 0): the reference's output at row 1024·t + p. -/
theorem out_at (c : Dev nD) (t : Fin cfg0.N) (p : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (0 : Fin 1)) = outCol m c (ix2 (rowAt t p) (0 : Fin 1)) := by
  refine (congrFun (out0_16_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 p (0 : Fin 1))).trans ?_
  exact Cert.Bridge.point_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (m ((c : Thread nD τ).loc main_arg0) : Vec Ideal S16384 .i32)
      (m ((c : Thread nD τ).loc main_arg1) : Vec Ideal S16384x1024 .i32)
      (m ((c : Thread nD τ).loc main_arg2) : Vec Ideal S16384x3 .f32)
      (m ((c : Thread nD τ).loc main_arg3) : Vec Ideal S100000x64 .f32)
      (m ((c : Thread nD τ).loc main_arg4) : Vec Ideal S1024x64 .f32)
      (m ((c : Thread nD τ).loc main_arg5) : Vec Ideal S3x64 .f32)
      (m ((c : Thread nD τ).loc main_arg6) : Vec Ideal S64 .f32)
      (m ((c : Thread nD τ).loc main_arg7) : Vec Ideal S195x128 .f32)
      (m ((c : Thread nD τ).loc main_arg8) : Vec Ideal S128 .f32)
      (m ((c : Thread nD τ).loc main_arg9) : Vec Ideal S128x1 .f32)
      (m ((c : Thread nD τ).loc main_arg10) : Vec Ideal S1 .f32)
      p (rowAt t p) (0 : Fin 1)
      (targets_row m c t p) (question_row m c t p) (features_row m c t p) (skills_col m c t) (skills_ones m c t)
      (diffw_entry m c t) (diffb_entry m c t) (band0_entry m c t) (band1_entry m c t) (band2_entry m c t)
      (wrow192_entry m c t) (wrow193_entry m c t) (wrow194_entry m c t) (hidb_entry m c t)
      (fun h => outw_entry m c t h (0 : Fin 1)) (outb_entry m c t)

/-- The idealized kernel's run: it terminates, the first result is the reference's hidden layer, the second the
    reference's output column reshaped to a vector, and the argument arrays are unchanged. -/
theorem run :
    θ_run defs (onTc (τ := τ) (main (F := Ideal))) ⟨m, fun _ => 0, ρ⟩ (fun r => ∀ c : Dev nD,
      r.2.mem ((c.tc : Thread nD τ).loc main_v24_0) = hidden m c
      ∧ r.2.mem ((c.tc : Thread nD τ).loc main_v25) = outVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Plumb.run (F := Ideal) m ρ (hidden m) (outCol m) (hidden_at m) (out_at m)

end Cert.KernelIdeal.Value

end
-- ==== Proof.lean ====
/-
  The kernel and its reference compute one function on the extended reals.

  A row of the batch carries a question id, 1024 skill targets and three difficulty features.  Both programs
  form, per row: the question's embedding q (a row gathered from the embedding table at the id, negative ids
  wrapped); the mean skill embedding s = (t · S) / (∑ t); the difficulty projection a = d · W + b; the three inner
  products ⟨q, s⟩, ⟨q, a⟩, ⟨s, a⟩; the hidden layer max (z · W' + b', 0) of the joined row z = [q | s | a | ⟨q, s⟩ | ⟨q, a⟩ | ⟨s, a⟩];
  and the output logistic (e · w + b'').  The kernel differs from the reference in arrangement only: it works on
  sixteen blocks of 1024 rows; it gets the count ∑ t as a 65th column of the product t · [S | 1]; it never joins z
  but adds the three 64-lane sub-products and the three scalar terms one after the other; its products run on
  the matrix unit in bf16 (a change of format is the identity at the ideal values); and it applies the logistic
  function as one operation where the reference spells 1 / (1 + exp (−x)).  The laws that join the two sides are
  x · 1 = x, 0 + x = x and the regrouping of a finite sum in a commutative monoid — all valid on every
  extended real, so the precondition (finite inputs) is never opened.

  The frames of the two kernel programs are the generated ones; the reference's frame is its generated run
  with the results dropped; the idealization rewrote nothing, so nothing is owed for it; and the last conjunct
  puts the kernel's run (its two results named as whole-array functions of the arguments) beside the
  reference's generated run, whose two results are the same functions once the arguments are identified.
-/
import proofs.«123834_j38826504356124_2_alg».proof.Defs
import proofs.«123834_j38826504356124_2_alg».proof.Proof.Gen.Kernel
import proofs.«123834_j38826504356124_2_alg».proof.Proof.Gen.Kernel.Frame
import proofs.«123834_j38826504356124_2_alg».proof.Proof.Gen.KernelIdeal
import proofs.«123834_j38826504356124_2_alg».proof.Proof.Gen.KernelIdeal.Frame
import proofs.«123834_j38826504356124_2_alg».proof.Proof.Gen.ReferenceIdeal
import proofs.«123834_j38826504356124_2_alg».proof.Proof.Gen.ReferenceIdeal.Run
import proofs.«123834_j38826504356124_2_alg».proof.Proof.Gen.ReferenceIdeal.Read
import proofs.«123834_j38826504356124_2_alg».proof.Proof.Gen.Pre_finite_inputs
import proofs.«123834_j38826504356124_2_alg».proof.Proof.KernelValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the reference's hidden layer and the
    reference's outputs, as functions of the kernel's arguments. -/
theorem algebraic : Cert.algebraic_KernelIdeal_ReferenceIdeal := by
  intro m ρ m' ρ' _ hagree
  refine ⟨fun c => Cert.KernelIdeal.Value.hidden m c, fun c => Cert.KernelIdeal.Value.outVec m c,
    Cert.KernelIdeal.Value.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v31_eq m' c).trans ?_)
    obtain ⟨a0, a1, a2, a3, a4, a5, a6, a7, a8, _, _⟩ := hagree c
    rw [a0, a1, a2, a3, a4, a5, a6, a7, a8]
    rfl
  · refine (h c).2.1.trans ((Cert.ReferenceIdeal.Read.val_main_v42_eq m' c).trans ?_)
    obtain ⟨a0, a1, a2, a3, a4, a5, a6, a7, a8, a9, a10⟩ := hagree c
    rw [a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
